-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S1 : Shape := ⟨1, ![1]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg14 : FVec F S128x128 .f32) (main_arg15 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128x128 .f32) (main_arg9 : FVec F S128 .f32) (main_arg10 : FVec F S128x64 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_v48 main_v49 main_v50

def fn_part1 {F : FTy → Type} [FloatOps F] (main_arg4 : FVec F S128x64 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S524288x64 .f32) (main_arg1 : FVec F S1 .f32) (main_arg2 : FVec F S1 .f32) (main_arg3 : FVec F S1 .f32) (main_arg4 : FVec F S128x64 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S524288x64 : Shape := ⟨2, ![524288, 64]⟩
abbrev S1 : Shape := ⟨1, ![1]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S1x128 : Shape := ⟨2, ![1, 128]⟩
abbrev S524288 : Shape := ⟨1, ![524288]⟩
abbrev S2048x64 : Shape := ⟨2, ![2048, 64]⟩
abbrev S2048 : Shape := ⟨1, ![2048]⟩
abbrev S2048x128 : Shape := ⟨2, ![2048, 128]⟩
abbrev S_ : Shape := ⟨0, ![]⟩
abbrev S2 : Shape := ⟨1, ![2]⟩
abbrev S1x2 : Shape := ⟨2, ![1, 2]⟩
abbrev S16384 : Shape := ⟨1, ![16384]⟩
abbrev S1x1 : Shape := ⟨2, ![1, 1]⟩

abbrev nBuf : Space → Nat
  | .hbm => 80
  | .vmem => 21
  | .smem => 0
  | _ => 0

abbrev bufTy : (tb : Table) → Fin (tcTables nBuf tb) → BufTy
  | .hbm, ⟨0, _⟩ => ⟨S524288x64, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S128x64, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S64x128, .f32⟩
  | .hbm, ⟨17, _⟩ => ⟨S64x128, .bf16⟩
  | .hbm, ⟨18, _⟩ => ⟨S1x128, .f32⟩
  | .hbm, ⟨19, _⟩ => ⟨S128x128, .f32⟩
  | .hbm, ⟨20, _⟩ => ⟨S128x128, .bf16⟩
  | .hbm, ⟨21, _⟩ => ⟨S1x128, .f32⟩
  | .hbm, ⟨22, _⟩ => ⟨S128x128, .f32⟩
  | .hbm, ⟨23, _⟩ => ⟨S128x128, .bf16⟩
  | .hbm, ⟨24, _⟩ => ⟨S1x128, .f32⟩
  | .hbm, ⟨25, _⟩ => ⟨S64x128, .f32⟩
  | .hbm, ⟨26, _⟩ => ⟨S64x128, .bf16⟩
  | .hbm, ⟨27, _⟩ => ⟨S1x128, .f32⟩
  | .hbm, ⟨28, _⟩ => ⟨S128x128, .f32⟩
  | .hbm, ⟨29, _⟩ => ⟨S128x128, .bf16⟩
  | .hbm, ⟨30, _⟩ => ⟨S1x128, .f32⟩
  | .hbm, ⟨31, _⟩ => ⟨S128x128, .f32⟩
  | .hbm, ⟨32, _⟩ => ⟨S128x128, .bf16⟩
  | .hbm, ⟨33, _⟩ => ⟨S1x128, .f32⟩
  | .hbm, ⟨34, _⟩ => ⟨S524288, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S524288, .f32⟩
  | .hbm, ⟨40, _⟩ => ⟨S524288, .f32⟩
  | .hbm, ⟨41, _⟩ => ⟨S524288, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S_, .f32⟩
  | .hbm, ⟨50, _⟩ => ⟨S1, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S1, .f32⟩
  | .hbm, ⟨58, _⟩ => ⟨S_, .f32⟩
  | .hbm, ⟨59, _⟩ => ⟨S1, .f32⟩
  | .hbm, ⟨60, _⟩ => ⟨S1, .f32⟩
  | .hbm, ⟨61, _⟩ => ⟨S1, .f32⟩
  | .hbm, ⟨62, _⟩ => ⟨S1, .f32⟩
  | .hbm, ⟨63, _⟩ => ⟨S_, .f32⟩
  | .hbm, ⟨64, _⟩ => ⟨S1, .f32⟩
  | .hbm, ⟨65, _⟩ => ⟨S1, .i1⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S1, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S1, .f32⟩
  | .hbm, ⟨74, _⟩ => ⟨S_, .f32⟩
  | .hbm, ⟨75, _⟩ => ⟨S1, .f32⟩
  | .hbm, ⟨76, _⟩ => ⟨S1, .f32⟩
  | .hbm, ⟨77, _⟩ => ⟨S2, .f32⟩
  | .hbm, ⟨78, _⟩ => ⟨S1x2, .f32⟩
  | .hbm, ⟨79, _⟩ => ⟨S524288, .f32⟩
  | .local _ .vmem, ⟨0, _⟩ => ⟨S2048x64, .f32⟩
  | .local _ .vmem, ⟨1, _⟩ => ⟨S2048x64, .f32⟩
  | .local _ .vmem, ⟨2, _⟩ => ⟨S64x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S64x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S2048, .f32⟩
  | .local _ .vmem, ⟨15, _⟩ => ⟨S2048, .f32⟩
  | .local _ .vmem, ⟨16, _⟩ => ⟨S16384, .f32⟩
  | .local _ .vmem, ⟨17, _⟩ => ⟨S16384, .f32⟩
  | .local _ .vmem, ⟨18, _⟩ => ⟨S1x2, .f32⟩
  | .local _ .vmem, ⟨19, _⟩ => ⟨S16384, .f32⟩
  | .local _ .vmem, ⟨20, _⟩ => ⟨S16384, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![32], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x64_S64x128_1_0 : S128x64.Transposes [1, 0] S64x128
  bitsLt_bf16_f32 : FTy.bits .bf16 < FTy.bits .f32
  shapeCasts_S128_S1x128 : S128.ShapeCasts S1x128
  transposes_S128x128_S128x128_1_0 : S128x128.Transposes [1, 0] S128x128
  inb_S2048x64_S2048x64_0_0 : ∀ a, (![0, 0] : Fin 2 → Nat) a + S2048x64.size a ≤ S2048x64.size a
  h_S2048x64 : 0 < S2048x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2048x128_S2048 : S2048x128.Reduces [1] S2048
  inb_S2048_S2048_0 : ∀ a, (![0] : Fin 1 → Nat) a + S2048.size a ≤ S2048.size a
  h_S2048 : 0 < S2048.numel
  reducesTo_S524288_S_d0 : S524288.ReducesTo [0] S_
  h_S_ : 0 < S_.numel
  bcast_S_S524288 : S_.BroadcastsInDim S524288 (![] : Fin 0 → Fin S524288.rank)
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1x2_S1x1_0_0 : ∀ a, (![0, 0] : Fin 2 → Nat) a + S1x1.size a ≤ S1x2.size a
  h_S1x1 : 0 < S1x1.numel
  inpos_S1x1_p0_0 : ∀ a, (![0, 0] : Fin 2 → Nat) a < S1x1.size a
  inb_S1x2_S1x1_0_1 : ∀ a, (![0, 1] : Fin 2 → Nat) a + S1x1.size a ≤ S1x2.size a
  inb_S16384_S16384_0 : ∀ a, (![0] : Fin 1 → Nat) a + S16384.size a ≤ S16384.size a
  h_S16384 : 0 < S16384.numel
  shapeCasts_S16384_S16384 : S16384.ShapeCasts S16384
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S524288x64.size a
  hwx0_0 : ∀ i : grid0.Coords, EltTy.bits .f32 = 32 ∨ (Rect.block (s := S524288x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .bf16 = 32 ∨ (Rect.block (s := S64x128) S64x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048.size a ≤ S524288.size a
  hwx0_13 : ∀ i : grid0.Coords, EltTy.bits .f32 = 32 ∨ (Rect.block (s := S524288) S2048.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384.size a ≤ S524288.size a
  hwx1_0 : ∀ i : grid1.Coords, EltTy.bits .f32 = 32 ∨ (Rect.block (s := S524288) S16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2.size a ≤ S1x2.size a
  hwx1_1 : ∀ i : grid1.Coords, EltTy.bits .f32 = 32 ∨ (Rect.block (s := S1x2) S1x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384.size a ≤ S524288.size a
  hwx1_2 : ∀ i : grid1.Coords, EltTy.bits .f32 = 32 ∨ (Rect.block (s := S524288) S16384.size (cc1_transform_2 i) (hinb1_2 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v18) S16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S524288x64 : Shape := ⟨2, ![524288, 64]⟩
abbrev S1 : Shape := ⟨1, ![1]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S524288x128 : Shape := ⟨2, ![524288, 128]⟩
abbrev S1x128 : Shape := ⟨2, ![1, 128]⟩
abbrev S_ : Shape := ⟨0, ![]⟩
abbrev S524288 : Shape := ⟨1, ![524288]⟩

abbrev nBuf : Space → Nat
  | .hbm => 111
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S128x64, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S64x128, .f32⟩
  | .hbm, ⟨17, _⟩ => ⟨S524288x128, .f32⟩
  | .hbm, ⟨18, _⟩ => ⟨S1x128, .f32⟩
  | .hbm, ⟨19, _⟩ => ⟨S524288x128, .f32⟩
  | .hbm, ⟨20, _⟩ => ⟨S524288x128, .f32⟩
  | .hbm, ⟨21, _⟩ => ⟨S_, .f32⟩
  | .hbm, ⟨22, _⟩ => ⟨S524288x128, .f32⟩
  | .hbm, ⟨23, _⟩ => ⟨S524288x128, .f32⟩
  | .hbm, ⟨24, _⟩ => ⟨S128x128, .f32⟩
  | .hbm, ⟨25, _⟩ => ⟨S524288x128, .f32⟩
  | .hbm, ⟨26, _⟩ => ⟨S1x128, .f32⟩
  | .hbm, ⟨27, _⟩ => ⟨S524288x128, .f32⟩
  | .hbm, ⟨28, _⟩ => ⟨S524288x128, .f32⟩
  | .hbm, ⟨29, _⟩ => ⟨S_, .f32⟩
  | .hbm, ⟨30, _⟩ => ⟨S524288x128, .f32⟩
  | .hbm, ⟨31, _⟩ => ⟨S524288x128, .f32⟩
  | .hbm, ⟨32, _⟩ => ⟨S128x128, .f32⟩
  | .hbm, ⟨33, _⟩ => ⟨S524288x128, .f32⟩
  | .hbm, ⟨34, _⟩ => ⟨S1x128, .f32⟩
  | .hbm, ⟨35, _⟩ => ⟨S524288x128, .f32⟩
  | .hbm, ⟨36, _⟩ => ⟨S524288x128, .f32⟩
  | .hbm, ⟨37, _⟩ => ⟨S64x128, .f32⟩
  | .hbm, ⟨38, _⟩ => ⟨S524288x128, .f32⟩
  | .hbm, ⟨39, _⟩ => ⟨S1x128, .f32⟩
  | .hbm, ⟨40, _⟩ => ⟨S524288x128, .f32⟩
  | .hbm, ⟨41, _⟩ => ⟨S524288x128, .f32⟩
  | .hbm, ⟨42, _⟩ => ⟨S_, .f32⟩
  | .hbm, ⟨43, _⟩ => ⟨S524288x128, .f32⟩
  | .hbm, ⟨44, _⟩ => ⟨S524288x128, .f32⟩
  | .hbm, ⟨45, _⟩ => ⟨S128x128, .f32⟩
  | .hbm, ⟨46, _⟩ => ⟨S524288x128, .f32⟩
  | .hbm, ⟨47, _⟩ => ⟨S1x128, .f32⟩
  | .hbm, ⟨48, _⟩ => ⟨S524288x128, .f32⟩
  | .hbm, ⟨49, _⟩ => ⟨S524288x128, .f32⟩
  | .hbm, ⟨50, _⟩ => ⟨S_, .f32⟩
  | .hbm, ⟨51, _⟩ => ⟨S524288x128, .f32⟩
  | .hbm, ⟨52, _⟩ => ⟨S524288x128, .f32⟩
  | .hbm, ⟨53, _⟩ => ⟨S128x128, .f32⟩
  | .hbm, ⟨54, _⟩ => ⟨S524288x128, .f32⟩
  | .hbm, ⟨55, _⟩ => ⟨S1x128, .f32⟩
  | .hbm, ⟨56, _⟩ => ⟨S524288x128, .f32⟩
  | .hbm, ⟨57, _⟩ => ⟨S524288x128, .f32⟩
  | .hbm, ⟨58, _⟩ => ⟨S524288x128, .f32⟩
  | .hbm, ⟨59, _⟩ => ⟨S524288x128, .f32⟩
  | .hbm, ⟨60, _⟩ => ⟨S_, .f32⟩
  | .hbm, ⟨61, _⟩ => ⟨S524288, .f32⟩
  | .hbm, ⟨62, _⟩ => ⟨S_, .f32⟩
  | .hbm, ⟨63, _⟩ => ⟨S524288, .f32⟩
  | .hbm, ⟨64, _⟩ => ⟨S524288, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S524288, .f32⟩
  | .hbm, ⟨70, _⟩ => ⟨S524288, .f32⟩
  | .hbm, ⟨71, _⟩ => ⟨S524288, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S1, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S1, .f32⟩
  | .hbm, ⟨86, _⟩ => ⟨S1, .f32⟩
  | .hbm, ⟨87, _⟩ => ⟨S1, .f32⟩
  | .hbm, ⟨88, _⟩ => ⟨S_, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S_, .f32⟩
  | .hbm, ⟨94, _⟩ => ⟨S1, .f32⟩
  | .hbm, ⟨95, _⟩ => ⟨S1, .i1⟩
  | .hbm, ⟨96, _⟩ => ⟨S_, .f32⟩
  | .hbm, ⟨97, _⟩ => ⟨S1, .f32⟩
  | .hbm, ⟨98, _⟩ => ⟨S1, .f32⟩
  | .hbm, ⟨99, _⟩ => ⟨S1, .f32⟩
  | .hbm, ⟨100, _⟩ => ⟨S1, .f32⟩
  | .hbm, ⟨101, _⟩ => ⟨S_, .f32⟩
  | .hbm, ⟨102, _⟩ => ⟨S1, .f32⟩
  | .hbm, ⟨103, _⟩ => ⟨S1, .f32⟩
  | .hbm, ⟨104, _⟩ => ⟨S524288, .f32⟩
  | .hbm, ⟨105, _⟩ => ⟨S524288, .f32⟩
  | .hbm, ⟨106, _⟩ => ⟨S_, .f32⟩
  | .hbm, ⟨107, _⟩ => ⟨S1, .f32⟩
  | .hbm, ⟨108, _⟩ => ⟨S1, .f32⟩
  | .hbm, ⟨109, _⟩ => ⟨S524288, .f32⟩
  | .hbm, ⟨110, _⟩ => ⟨S524288, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_cst : Ref sig .tc := ⟨.hbm, 29, rfl⟩
abbrev main_call1_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_cst : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call3_cst : Ref sig .tc := ⟨.hbm, 50, rfl⟩
abbrev main_call3_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_cst_0 : Ref sig .tc := ⟨.hbm, 62, rfl⟩
abbrev main_v37 : Ref sig .tc := ⟨.hbm, 63, rfl⟩
abbrev main_v38 : Ref sig .tc := ⟨.hbm, 64, rfl⟩
abbrev main_cst_1 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_cst_4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_6 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_cst_8 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S128x128_S128x128_1_0 : S128x128.Transposes [1, 0] S128x128
  reducesTo_S524288x128_S524288_d1 : S524288x128.ReducesTo [1] S524288
  h_S_ : 0 < S_.numel
  bcast_S_S524288 : S_.BroadcastsInDim S524288 (![] : Fin 0 → Fin S524288.rank)
  reducesTo_S524288_S_d0 : S524288.ReducesTo [0] S_
  bcast_S_S1 : S_.BroadcastsInDim S1 (![] : Fin 0 → Fin S1.rank)
  bcast_S1_S524288_0 : S1.BroadcastsInDim S524288 (![0] : Fin 1 → Fin S524288.rank)
  dot_S524288x64_S64x128_S524288x128_1_0_0_1_n_n_wf : DotDims.WF S524288x64 S64x128 S524288x128 [1] [0] [0] [1] [] []
  dot_S524288x128_S128x128_S524288x128_1_0_0_1_n_n_wf : DotDims.WF S524288x128 S128x128 S524288x128 [1] [0] [0] [1] [] []

variable [Facts₀]

def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.KRun.lean ====
/-
  The whole program's run, with its result named.

  The program is a first tiled pass (the rewards), a stretch of scalar statistics, and a second tiled pass (the
  normalisation). Every weakly fair execution ends, without a fault, with the argument arrays as launched and
  the result array holding what the second pass's write-backs leave of the contents it was entered with: the
  last boundary's contents, read at the result.
-/
import proofs.«102708_j48052094107731_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, every argument array as launched. -/
theorem run_result : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Result

end
-- ==== Proof.KNorm.lean ====
/-
  The second pass. The grid's point t takes entries 16384·t … 16384·t + 16383 of the reward vector and the
  whole of the two-entry parameter row (the mean, the divisor), and writes (reward − mean) / divisor into the
  same entries of the result; the 32 points between them write all of it. Stated for any contents the pass
  is entered with.
-/
import proofs.«102708_j48052094107731_1_alg».proof.Proof.Gen.KernelIdeal.Frame
import Idealize.ShloMosaic.Lib.ValueIdx
import Idealize.ShloMosaic.Lib.Pipeline.Value

set_option maxRecDepth 16384

noncomputable section

namespace Cert.KernelIdeal.Norm

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem zeros1 : (![0] : Fin 1 → Nat) = fun _ => 0 := funext fun a => by fin_cases a <;> rfl

/-- The body's stored value at an entry: the loaded reward less the row's first entry, over its second. -/
theorem norm_pay (x0 : FVec Ideal S16384 .f32) (x1 : FVec Ideal S1x2 .f32) (j : S16384.Idx) :
    k1_pay1 (F := Ideal) (View.ld x1 r1_0) (View.ld x1 r1_1) x0 j
      = Ideal.div (x0 j - x1 (ix2 (0 : Fin 1) (0 : Fin 2))) (x1 (ix2 (0 : Fin 1) (1 : Fin 2))) := by
  unfold k1_pay1
  rw [divf_apply, subf_apply, broadcast_apply, broadcast_apply, shapeCast_self]
  refine congrArg₂ Ideal.div (congrArg₂ (· - ·) rfl ?_) ?_
  · show x1 _ = x1 _
    refine congrArg x1 (funext fun a => Fin.ext ?_)
    match a with
    | ⟨0, _⟩ => rfl
    | ⟨1, _⟩ => rfl
  · show x1 _ = x1 _
    refine congrArg x1 (funext fun a => Fin.ext ?_)
    match a with
    | ⟨0, _⟩ => rfl
    | ⟨1, _⟩ => rfl

variable (V : (c : Dev nD) → (b : Ref sig .tc) → Buf (Elt Ideal) ((c : Thread nD τ).loc b))

/-- The reward vector the pass is entered with. -/
def rewardsAt (c : Dev nD) : S524288.Idx → EReal := V c main_v18
/-- The parameter row the pass is entered with. -/
def paramsAt (c : Dev nD) : S1x2.Idx → EReal := V c main_v52

/-- The normalised vector of the contents the pass is entered with. -/
def normOf (c : Dev nD) : S524288.Idx → EReal :=
  fun i => Ideal.div (rewardsAt V c i - paramsAt V c (ix2 (0 : Fin 1) (0 : Fin 2))) (paramsAt V c (ix2 (0 : Fin 1) (1 : Fin 2)))

/-- The printed index maps over the grid: the rewards' and the result's block index is the point, the parameter
    row's is zero. -/
theorem idx_facts : ∀ t : Fin cfg1.N, win1_2.index t (0 : Fin 1) = t.val ∧ win1_0.index t (0 : Fin 1) = t.val
    ∧ win1_1.index t (0 : Fin 2) = 0 ∧ win1_1.index t (1 : Fin 2) = 0 :=
  (by decide +kernel : ∀ t : Fin grid1.N, _)

/-- What point t writes back is its stretch of the normalised vector. -/
theorem flushed_eq (c : Dev nD) (t : Fin cfg1.N) :
    (dat1 V c).flushed 2 t = ((cfg1.win 2).blk t).view.read (Elt Ideal) (normOf V c) := by
  obtain ⟨e0, e1, e2, e3⟩ := idx_facts t
  show (cfg1.win 2).cut (grid1.coords t) ((dat1 V c).after 2 t) = _
  rw [after1_2]
  unfold out1_2
  rw [View.canon_unit_zero zeros1]
  simp only [View.ld_unit_zero (S := S16384) zeros1]
  funext j
  refine (norm_pay (iblk1 V c 0 t) (iblk1 V c 1 t) j).trans ?_
  show Ideal.div (rewardsAt V c (((cfg1.win 0).blk t).view.emb j) - paramsAt V c (((cfg1.win 1).blk t).view.emb (ix2 (0 : Fin 1) (0 : Fin 2))))
      (paramsAt V c (((cfg1.win 1).blk t).view.emb (ix2 (0 : Fin 1) (1 : Fin 2))))
    = Ideal.div (rewardsAt V c (((cfg1.win 2).blk t).view.emb j) - paramsAt V c (ix2 (0 : Fin 1) (0 : Fin 2))) (paramsAt V c (ix2 (0 : Fin 1) (1 : Fin 2)))
  have h0 : ((cfg1.win 0).blk t).view.emb j = ((cfg1.win 2).blk t).view.emb j := by
    funext a; apply Fin.ext
    match a with
    | ⟨0, _⟩ => show win1_0.index t (0 : Fin 1) * 16384 + 1 * (j 0).val = win1_2.index t (0 : Fin 1) * 16384 + 1 * (j 0).val; omega
  have h1 : ∀ y : S1x2.Idx, ((cfg1.win 1).blk t).view.emb y = y := by
    intro y; funext a; apply Fin.ext
    match a with
    | ⟨0, _⟩ => show win1_1.index t (0 : Fin 2) * 1 + 1 * (y 0).val = (y 0).val; omega
    | ⟨1, _⟩ => show win1_1.index t (1 : Fin 2) * 2 + 1 * (y 1).val = (y 1).val; omega
  rw [h0, h1, h1]

/-- An entry is in point t's block iff it lies in the point's stretch. -/
theorem mem_blk (t : Fin cfg1.N) (i : S524288.Idx) :
    i ∈ ((cfg1.win 2).blk t).view.set ↔ ∀ a : Fin 1, win1_2.index t a * S16384.size a ≤ (i a).val ∧ (i a).val < win1_2.index t a * S16384.size a + S16384.size a := by
  show i ∈ ((View.whole main_v53).slice (win1_2.rect t)).set ↔ _
  rw [View.set_slice_whole, Rect.mem_set_unit]
  exact Iff.rfl

/-- Every entry is written by the point its stretch belongs to. -/
theorem cover (i : S524288.Idx) : ∃ t : Fin cfg1.N, (cfg1.win 2).flush t = true ∧ i ∈ ((cfg1.win 2).blk t).view.set := by
  have hi : (i 0).val < 524288 := (i 0).isLt
  have hN : cfg1.N = 32 := N_1
  obtain ⟨t, ht⟩ : ∃ t : Fin cfg1.N, t.val = (i 0).val / 16384 := ⟨⟨(i 0).val / 16384, by rw [hN]; omega⟩, rfl⟩
  refine ⟨t, flush1_2 t, ?_⟩
  obtain ⟨e0, -⟩ := idx_facts t
  rw [mem_blk]
  intro a
  match a with
  | ⟨0, _⟩ => show win1_2.index t (0 : Fin 1) * 16384 ≤ (i 0).val ∧ (i 0).val < win1_2.index t (0 : Fin 1) * 16384 + 16384; omega

/-- The second pass leaves the normalised vector. -/
theorem final (c : Dev nD) : (dat1 V c).arrAt 2 cfg1.N = normOf V c :=
  (dat1 V c).arrAt_eq_of_cover 2 (normOf V c) (fun t _ => flushed_eq V c t) cover

end Cert.KernelIdeal.Norm

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«102708_j48052094107731_1_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.LibPerceptron.lean ====
/-
  A three-layer perceptron on the extended reals.

  For a batch x : [n, d0], weights w1 : [d0, d1], w2 : [d1, d2], w3 : [d2, d3] and bias rows b1, b2, b3,
  a hidden layer is the dense layer x · w + b followed by the rectifier max(·, 0), entry by entry, and the
  network's output at (r, j) is tanh of the third dense layer's entry over the two hidden layers. Row r of
  the output depends on row r of the batch only: that is what lets a batch be cut into row tiles of any
  height and each tile be computed on its own.
-/
import proofs.«102708_j48052094107731_1_alg».proof.Proof.LibDenseRow

noncomputable section

open scoped BigOperators

namespace Cert.Perceptron

open Idealize.ShloMosaic Idealize.ShloMosaic.ValueIdx Idealize.ShloMosaic.GcnDense

/-- The rectifier's threshold: the all-zero single-precision word as an extended real. -/
abbrev zeroWord : EReal := Ideal.ofBits .f32 0x00000000#32

/-- A hidden layer: the dense layer's entry, rectified. -/
def hidden {n K N : ℕ} (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => max (entry x w b (i 0) (i 1)) zeroWord

theorem hidden_ix2 {n K N : ℕ} (x : (⟨2, ![n, K]⟩ : Shape).Idx → EReal) (w : (⟨2, ![K, N]⟩ : Shape).Idx → EReal)
    (b : (⟨2, ![1, N]⟩ : Shape).Idx → EReal) (r : Fin n) (j : Fin N) :
    hidden x w b (ix2 r j) = max (entry x w b r j) zeroWord := rfl

/-- Row r of a hidden layer depends on row r of its input only, whatever the two row counts. -/
theorem hidden_congr {n n' K N : ℕ} (x : (⟨2, ![n, K]⟩ : Shape).Idx → EReal) (x' : (⟨2, ![n', K]⟩ : Shape).Idx → EReal)
    (w : (⟨2, ![K, N]⟩ : Shape).Idx → EReal) (b : (⟨2, ![1, N]⟩ : Shape).Idx → EReal) (r : Fin n) (r' : Fin n')
    (h : ∀ k, x (ix2 r k) = x' (ix2 r' k)) (j : Fin N) :
    hidden x w b (ix2 r j) = hidden x' w b (ix2 r' j) := by
  rw [hidden_ix2, hidden_ix2, entry_congr x w b x' w b r r' j h (fun _ => rfl) rfl]

/-- A dense layer as a vector program computes it — a matrix product into the zero accumulator plus the bias row
    spread over the rows — is, at (r, j), the layer's entry. -/
theorem dense_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) b hb) (ix2 r j)
      = entry x w b r j := by
  rw [addf_apply, broadcastTo_1b_ab_apply]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The same followed by the rectifier against the zero word spread over the block: the hidden layer's entry. -/
theorem hidden_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    maximumf (addf (matmul D prec x w (constant (F := Ideal) (⟨2, ![n, N]⟩ : Shape) .f32 0x00000000#32))
        (broadcastTo (⟨2, ![n, N]⟩ : Shape) b hb))
      (broadcast (⟨2, ![n, N]⟩ : Shape) (Scalar.ofBits (F := Ideal) .f32 0x00000000#32)) (ix2 r j)
      = hidden x w b (ix2 r j) := by
  rw [maximumf_apply, broadcast_apply, dense_apply D hr hs hlc hrc hl0 hr1 prec x w b hb r j, hidden_ix2]
  rfl

/-- The network's output at row r, column j. -/
def out {n d0 d1 d2 d3 : ℕ} (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (j : Fin d3) : EReal :=
  Ideal.tanh (entry (hidden (hidden x w1 b1) w2 b2) w3 b3 r j)

/-- Row r of the output depends on row r of the batch only. -/
theorem out_congr {n n' d0 d1 d2 d3 : ℕ} (x : (⟨2, ![n, d0]⟩ : Shape).Idx → EReal) (x' : (⟨2, ![n', d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (r' : Fin n') (h : ∀ k, x (ix2 r k) = x' (ix2 r' k)) (j : Fin d3) :
    out x w1 b1 w2 b2 w3 b3 r j = out x' w1 b1 w2 b2 w3 b3 r' j := by
  unfold out
  refine congrArg Ideal.tanh (entry_congr _ _ _ _ _ _ r r' j (fun k => ?_) (fun _ => rfl) rfl)
  exact hidden_congr _ _ w2 b2 r r' (fun k' => hidden_congr x x' w1 b1 r r' h k') k

/-- The first a columns of the output, as one array over the whole batch. -/
def outCols {n d0 d1 d2 d3 a : ℕ} (ha : a ≤ d3) (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal) :
    (⟨2, ![n, a]⟩ : Shape).Idx → EReal :=
  fun i => out x w1 b1 w2 b2 w3 b3 (i 0) (Fin.castLE ha (i 1))

end Cert.Perceptron

end
-- ==== Proof.Spec.lean ====
/-
  The reward normaliser as functions on the extended reals.

  Two three-layer networks (64 → 128 → 128 → 128, a rectifier after the first two layers) are applied to every
  row of the observation matrix; a row's reward is the mean over the 128 outputs of the squared difference of
  the two networks. The rewards' mean and sum of squared deviations are merged with the running statistics
  (count, mean, second moment) by the parallel update of Chan et al., and every reward is then shifted by the
  new mean and divided by the new standard deviation plus a small constant.

  The weights are taken in the layout a matrix product wants them: a weight matrix transposed to
  [inputs, outputs], a bias vector as one row. A row's reward depends on that row of the observations only,
  which is what lets the rows be computed tile by tile.
-/
import Idealize.ShloMosaic.Lib.ValueIdx
import Idealize.ShloMosaic.Lib.Pipeline.Value
import Idealize.ShloMosaic.PureOps.Ideal.Laws
import proofs.«102708_j48052094107731_1_alg».proof.Proof.LibPerceptron

noncomputable section

open scoped BigOperators

namespace Cert.Rnd

open Idealize.ShloMosaic Idealize.ShloMosaic.ValueIdx Idealize.ShloMosaic.GcnDense Cert.Perceptron

/-- A matrix of extended reals. -/
abbrev Mat (a b : ℕ) : Type := (⟨2, ![a, b]⟩ : Shape).Idx → EReal
/-- A vector of extended reals. -/
abbrev Vct (a : ℕ) : Type := (⟨1, ![a]⟩ : Shape).Idx → EReal

/-- A matrix transposed. -/
def flip {a b : ℕ} (W : Mat a b) : Mat b a := fun i => W (ix2 (i 1) (i 0))
/-- A vector as a one-row matrix. -/
def asRow {a : ℕ} (v : Vct a) : Mat 1 a := fun i => v (ix1 (i 1))

/-- One network's weights, as its three matrix products take them. -/
structure Net where
  w1 : Mat 64 128
  b1 : Mat 1 128
  w2 : Mat 128 128
  b2 : Mat 1 128
  w3 : Mat 128 128
  b3 : Mat 1 128

/-- The network of weight matrices [out, in] and bias vectors. -/
def netOf (W1 : Mat 128 64) (c1 : Vct 128) (W2 : Mat 128 128) (c2 : Vct 128) (W3 : Mat 128 128) (c3 : Vct 128) : Net :=
  ⟨flip W1, asRow c1, flip W2, asRow c2, flip W3, asRow c3⟩

/-- Output j of the network on row r of x: the third dense layer over two rectified dense layers. -/
def Net.out {n : ℕ} (N : Net) (x : Mat n 64) (r : Fin n) (j : Fin 128) : EReal :=
  entry (hidden (hidden x N.w1 N.b1) N.w2 N.b2) N.w3 N.b3 r j

/-- The network's output on a row depends on that row only, whatever the number of rows around it. -/
theorem Net.out_congr {n n' : ℕ} (N : Net) (x : Mat n 64) (x' : Mat n' 64) (r : Fin n) (r' : Fin n')
    (h : ∀ k, x (ix2 r k) = x' (ix2 r' k)) (j : Fin 128) : N.out x r j = N.out x' r' j := by
  unfold Net.out
  refine entry_congr _ _ _ _ _ _ r r' j (fun k => ?_) (fun _ => rfl) rfl
  exact hidden_congr _ _ N.w2 N.b2 r r' (fun k' => hidden_congr x x' N.w1 N.b1 r r' h k') k

/-- Row r's reward: the sum over the 128 outputs of the squared difference of the two networks, over 128. -/
def reward {n : ℕ} (T P : Net) (x : Mat n 64) (r : Fin n) : EReal :=
  Ideal.div (∑ j : Fin 128, (T.out x r j - P.out x r j) * (T.out x r j - P.out x r j)) (Ideal.ofBits .f32 0x43000000#32)

/-- A row's reward depends on that row only. -/
theorem reward_congr {n n' : ℕ} (T P : Net) (x : Mat n 64) (x' : Mat n' 64) (r : Fin n) (r' : Fin n')
    (h : ∀ k, x (ix2 r k) = x' (ix2 r' k)) : reward T P x r = reward T P x' r' := by
  unfold reward
  refine congrArg (Ideal.div · _) (Finset.sum_congr rfl fun j _ => ?_)
  rw [T.out_congr x x' r r' h j, P.out_congr x x' r r' h j]

/-- The rewards of all rows. -/
def rewards {n : ℕ} (T P : Net) (x : Mat n 64) : Vct n := fun i => reward T P x (i 0)

/-! ## The statistics and the normalisation, in the operations both programs spell them with -/

abbrev VN : Type := FVec Ideal (⟨1, ![524288]⟩ : Shape) .f32
abbrev V1 : Type := FVec Ideal (⟨1, ![1]⟩ : Shape) .f32
abbrev V0 : Type := FVec Ideal (⟨0, ![]⟩ : Shape) .f32

/-- The shape facts the operations below carry: a sum over the whole vector, and a scalar spread to a vector. -/
structure Sides : Prop where
  red : (⟨1, ![524288]⟩ : Shape).ReducesTo [0] ⟨0, ![]⟩
  pos : 0 < (⟨0, ![]⟩ : Shape).numel
  toOne : (⟨0, ![]⟩ : Shape).BroadcastsInDim ⟨1, ![1]⟩ (![] : Fin 0 → Fin (⟨1, ![1]⟩ : Shape).rank)
  toAll : (⟨0, ![]⟩ : Shape).BroadcastsInDim ⟨1, ![524288]⟩ (![] : Fin 0 → Fin (⟨1, ![524288]⟩ : Shape).rank)

variable (sd : Sides)

/-- A scalar constant by its single-precision word. -/
def lit (w : BitVec 32) : V0 := constant (F := Ideal) (⟨0, ![]⟩ : Shape) .f32 w
/-- A scalar as a vector of length one. -/
def spread1 (v : V0) : V1 := broadcastInDim (⟨1, ![1]⟩ : Shape) ![] sd.toOne v
/-- A scalar spread over all rows. -/
def spreadN (v : V0) : VN := broadcastInDim (⟨1, ![524288]⟩ : Shape) ![] sd.toAll v
/-- The sum of a vector's entries, from zero. -/
def total (R : VN) : V0 := Host.reduceAdd (F := Ideal) R (lit 0x00000000#32) sd.red sd.pos
/-- The batch mean: the sum over the number of rows, 524288. -/
def mean (R : VN) : V0 := Host.divf (F := Ideal) (total sd R) (lit 0x49000000#32)
/-- The deviations from the batch mean. -/
def centred (R : VN) : VN := subf R (spreadN sd (mean sd R))
/-- The batch's sum of squared deviations. -/
def m2 (R : VN) : V0 := total sd (mulf (centred sd R) (centred sd R))
/-- The new count: the running count plus 524288. -/
def count (x3 : V1) : V1 := addf x3 (spread1 sd (lit 0x49000000#32))
/-- The batch mean less the running mean. -/
def delta (R : VN) (x1 : V1) : V1 := subf (spread1 sd (mean sd R)) x1
/-- The new mean. -/
def newMean (R : VN) (x1 x3 : V1) : V1 :=
  addf x1 (Host.divf (F := Ideal) (mulf (delta sd R x1) (spread1 sd (lit 0x49000000#32))) (count sd x3))
/-- The new second moment. -/
def newM2 (R : VN) (x1 x2 x3 : V1) : V1 :=
  addf (addf x2 (spread1 sd (m2 sd R)))
    (Host.divf (F := Ideal) (mulf (mulf (mulf (delta sd R x1) (delta sd R x1)) x3) (spread1 sd (lit 0x49000000#32))) (count sd x3))
/-- The new standard deviation: the root of the second moment over the count less one when the count exceeds one,
    else one. -/
def std (R : VN) (x1 x2 x3 : V1) : V1 :=
  select (cmpf .ogt (count sd x3) (spread1 sd (lit 0x3F800000#32)))
    (Host.sqrt (F := Ideal) (Host.divf (F := Ideal) (newM2 sd R x1 x2 x3) (subf (count sd x3) (spread1 sd (lit 0x3F800000#32)))))
    (spread1 sd (lit 0x3F800000#32))
/-- The divisor: the standard deviation plus the small constant. -/
def denom (R : VN) (x1 x2 x3 : V1) : V1 := addf (std sd R x1 x2 x3) (spread1 sd (lit 0x322BCC77#32))

/-- The normalised rewards: each reward less the new mean, over the divisor. -/
def normalized (R : VN) (x1 x2 x3 : V1) : VN :=
  fun i => Ideal.div (R i - newMean sd R x1 x3 (ix1 0)) (denom sd R x1 x2 x3 (ix1 0))

end Cert.Rnd

end
-- ==== Proof.Layouts.lean ====
/-
  The weights' layouts: a weight matrix transposed is `flip`, and a bias vector set under a unit axis, whether by
  a reshape or by a broadcast, is `asRow`. A narrowing of the number format changes nothing on the extended reals.
-/
import Idealize.ShloMosaic.Lib.ValueLayout
import proofs.«102708_j48052094107731_1_alg».proof.Proof.Spec

noncomputable section

namespace Cert.Rnd

open Idealize.ShloMosaic Idealize.ShloMosaic.ValueIdx Idealize.ShloMosaic.GcnDense

/-- A matrix transposed by the permutation [1, 0] reads, at (j, i), the operand at (i, j). -/
theorem flip_of_transpose {a b : ℕ} (x : Mat a b) (h : (⟨2, ![a, b]⟩ : Shape).Transposes [1, 0] ⟨2, ![b, a]⟩) :
    transpose (⟨2, ![b, a]⟩ : Shape) [1, 0] x h = flip x := by
  funext i
  obtain ⟨p, q, rfl⟩ : ∃ (p : Fin b) (q : Fin a), i = ix2 p q := ⟨i 0, i 1, eq_ix2 i⟩
  exact transpose_ix2_apply x h p q

/-- A vector reshaped to one row. -/
theorem asRow_of_cast {a : ℕ} (v : Vct a) (h : (⟨1, ![a]⟩ : Shape).ShapeCasts ⟨2, ![1, a]⟩) :
    shapeCast (⟨2, ![1, a]⟩ : Shape) v h = asRow v := by
  funext i
  obtain ⟨p, q, rfl⟩ : ∃ (p : Fin 1) (q : Fin a), i = ix2 p q := ⟨i 0, i 1, eq_ix2 i⟩
  exact shapeCast_a_1a_apply v h p q

/-- A vector broadcast to one row. -/
theorem asRow_of_bcast {a : ℕ} (v : Vct a) (h1 : (⟨1, ![a]⟩ : Shape).BroadcastsInDim ⟨2, ![1, a]⟩ ![1])
    (hc : (⟨1, ![a]⟩ : Shape).ShapeCasts ⟨2, ![1, a]⟩) :
    broadcastInDim (⟨2, ![1, a]⟩ : Shape) ![1] h1 v = asRow v :=
  (row_reshape_eq_broadcast v hc h1).symm.trans (asRow_of_cast v hc)

/-- Rounding to a narrower format is the identity on extended reals. -/
theorem truncf_eq {s : Shape} {φ ψ : FTy} (a : FVec Ideal s φ) (h : ψ.bits < φ.bits) :
    (truncf ψ a h : s.Idx → EReal) = a := rfl

end Cert.Rnd

end
-- ==== Proof.KIn.lean ====
/-
  What the first pass finds in its operands when it is entered: the observations as launched, every weight
  matrix transposed, every bias vector as one row.
-/
import proofs.«102708_j48052094107731_1_alg».proof.Proof.Gen.KernelIdeal.Frame
import Idealize.ShloMosaic.Lib.StableHlo.Run
import proofs.«102708_j48052094107731_1_alg».proof.Proof.Layouts

noncomputable section

namespace Cert.KernelIdeal.Entry

open Cert.KernelIdeal Cert.KernelIdeal.Gen Cert.Rnd
open Idealize.ShloMosaic Idealize.ShloMosaic.TcCoe Idealize.SL.Sem Idealize.ShloMosaic.StableHlo

variable (m : (ℓ : Loc nD τ sig) → Buf (Elt Ideal) ℓ) (ρ : Dev nD → PrngReg)

/-- The observations are as launched. -/
theorem at_obs (c : Dev nD) : V1 m ρ c main_arg0 = m ((c : Thread nD τ).loc main_arg0) := by
  show StableHlo.after hostOps0 (W0 m ρ c) (Proc.devRef .tc main_arg0) = _
  after_results

theorem at_main_v1 (c : Dev nD) : (V1 m ρ c main_v1 : S64x128.Idx → EReal) = flip (m ((c : Thread nD τ).loc main_arg4) : S128x64.Idx → EReal) := by
  show StableHlo.after hostOps0 (W0 m ρ c) (Proc.devRef .tc main_v1) = _
  after_results
  exact flip_of_transpose _ _

theorem at_main_v2 (c : Dev nD) : (V1 m ρ c main_v2 : S1x128.Idx → EReal) = asRow (m ((c : Thread nD τ).loc main_arg5) : S128.Idx → EReal) := by
  show StableHlo.after hostOps0 (W0 m ρ c) (Proc.devRef .tc main_v2) = _
  after_results
  exact asRow_of_cast _ _

theorem at_main_v4 (c : Dev nD) : (V1 m ρ c main_v4 : S128x128.Idx → EReal) = flip (m ((c : Thread nD τ).loc main_arg6) : S128x128.Idx → EReal) := by
  show StableHlo.after hostOps0 (W0 m ρ c) (Proc.devRef .tc main_v4) = _
  after_results
  exact flip_of_transpose _ _

theorem at_main_v5 (c : Dev nD) : (V1 m ρ c main_v5 : S1x128.Idx → EReal) = asRow (m ((c : Thread nD τ).loc main_arg7) : S128.Idx → EReal) := by
  show StableHlo.after hostOps0 (W0 m ρ c) (Proc.devRef .tc main_v5) = _
  after_results
  exact asRow_of_cast _ _

theorem at_main_v7 (c : Dev nD) : (V1 m ρ c main_v7 : S128x128.Idx → EReal) = flip (m ((c : Thread nD τ).loc main_arg8) : S128x128.Idx → EReal) := by
  show StableHlo.after hostOps0 (W0 m ρ c) (Proc.devRef .tc main_v7) = _
  after_results
  exact flip_of_transpose _ _

theorem at_main_v8 (c : Dev nD) : (V1 m ρ c main_v8 : S1x128.Idx → EReal) = asRow (m ((c : Thread nD τ).loc main_arg9) : S128.Idx → EReal) := by
  show StableHlo.after hostOps0 (W0 m ρ c) (Proc.devRef .tc main_v8) = _
  after_results
  exact asRow_of_cast _ _

theorem at_main_v10 (c : Dev nD) : (V1 m ρ c main_v10 : S64x128.Idx → EReal) = flip (m ((c : Thread nD τ).loc main_arg10) : S128x64.Idx → EReal) := by
  show StableHlo.after hostOps0 (W0 m ρ c) (Proc.devRef .tc main_v10) = _
  after_results
  exact flip_of_transpose _ _

theorem at_main_v11 (c : Dev nD) : (V1 m ρ c main_v11 : S1x128.Idx → EReal) = asRow (m ((c : Thread nD τ).loc main_arg11) : S128.Idx → EReal) := by
  show StableHlo.after hostOps0 (W0 m ρ c) (Proc.devRef .tc main_v11) = _
  after_results
  exact asRow_of_cast _ _

theorem at_main_v13 (c : Dev nD) : (V1 m ρ c main_v13 : S128x128.Idx → EReal) = flip (m ((c : Thread nD τ).loc main_arg12) : S128x128.Idx → EReal) := by
  show StableHlo.after hostOps0 (W0 m ρ c) (Proc.devRef .tc main_v13) = _
  after_results
  exact flip_of_transpose _ _

theorem at_main_v14 (c : Dev nD) : (V1 m ρ c main_v14 : S1x128.Idx → EReal) = asRow (m ((c : Thread nD τ).loc main_arg13) : S128.Idx → EReal) := by
  show StableHlo.after hostOps0 (W0 m ρ c) (Proc.devRef .tc main_v14) = _
  after_results
  exact asRow_of_cast _ _

theorem at_main_v16 (c : Dev nD) : (V1 m ρ c main_v16 : S128x128.Idx → EReal) = flip (m ((c : Thread nD τ).loc main_arg14) : S128x128.Idx → EReal) := by
  show StableHlo.after hostOps0 (W0 m ρ c) (Proc.devRef .tc main_v16) = _
  after_results
  exact flip_of_transpose _ _

theorem at_main_v17 (c : Dev nD) : (V1 m ρ c main_v17 : S1x128.Idx → EReal) = asRow (m ((c : Thread nD τ).loc main_arg15) : S128.Idx → EReal) := by
  show StableHlo.after hostOps0 (W0 m ρ c) (Proc.devRef .tc main_v17) = _
  after_results
  exact asRow_of_cast _ _

end Cert.KernelIdeal.Entry

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.KPay.lean ====
/-
  What the first pass's body writes for one tile of 2048 rows: entry r of the stored vector is the reward of row r
  of the tile. The two networks are run on the tile layer by layer — a matrix product into a zero accumulator,
  the bias row added to every row, the rectifier after the first two layers —, the outputs subtracted, squared,
  summed along each row and divided by 128.
-/
import proofs.«102708_j48052094107731_1_alg».proof.Proof.Gen.KernelIdeal.Skeleton
import proofs.«102708_j48052094107731_1_alg».proof.Proof.LibRowSum
import proofs.«102708_j48052094107731_1_alg».proof.Proof.Layouts

noncomputable section

namespace Cert.KernelIdeal.Tile

open Cert.KernelIdeal Cert.KernelIdeal.Gen Cert.Rnd Cert.Perceptron
open Idealize.ShloMosaic Idealize.ShloMosaic.ValueIdx Idealize.ShloMosaic.GcnDense

/-- The first layer's product keeps the row of the result on the left and its column on the right. -/
theorem in_lhs0 (i : S2048x128.Idx) (q : dot_S2048x64_S64x128_S2048x128_1_0_0_1_n_n.contr.Idx) :
    (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
theorem in_rhs1 (i : S2048x128.Idx) (q : dot_S2048x64_S64x128_S2048x128_1_0_0_1_n_n.contr.Idx) :
    (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl
/-- So do the later layers' products. -/
theorem mid_lhs0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem mid_rhs1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The first rectified layer of a tile, as the body computes it, is the hidden layer of the tile. -/
theorem first_layer (x : FVec Ideal S2048x64 .f32) (w : FVec Ideal S64x128 .bf16) (b : FVec Ideal S1x128 .f32) :
    maximumf (addf (matmul dot_S2048x64_S64x128_S2048x128_1_0_0_1_n_n none (truncf .bf16 x bitsLt_bf16_f32)
          (shapeCast S64x128 w shapeCasts_S64x128_S64x128) (constant (F := Ideal) S2048x128 .f32 0x00000000#32))
        (broadcastTo S2048x128 (shapeCast S1x128 b shapeCasts_S1x128_S1x128) broadcasts_S1x128_S2048x128))
      (broadcast S2048x128 (Scalar.ofBits (F := Ideal) .f32 0x00000000#32))
    = hidden (x : S2048x64.Idx → EReal) (w : S64x128.Idx → EReal) (b : S1x128.Idx → EReal) := by
  funext i
  obtain ⟨r, j, rfl⟩ : ∃ (r : Fin 2048) (j : Fin 128), i = ix2 r j := ⟨i 0, i 1, eq_ix2 i⟩
  rw [shapeCast_self, shapeCast_self]
  exact hidden_apply dot_S2048x64_S64x128_S2048x128_1_0_0_1_n_n rfl rfl rfl rfl in_lhs0 in_rhs1 none
    (truncf .bf16 x bitsLt_bf16_f32) w b broadcasts_S1x128_S2048x128 r j

/-- A later rectified layer. -/
theorem next_layer (h : FVec Ideal S2048x128 .f32) (w : FVec Ideal S128x128 .bf16) (b : FVec Ideal S1x128 .f32) :
    maximumf (addf (matmul dot_S2048x128_S128x128_S2048x128_1_0_0_1_n_n none (truncf .bf16 h bitsLt_bf16_f32)
          (shapeCast S128x128 w shapeCasts_S128x128_S128x128) (constant (F := Ideal) S2048x128 .f32 0x00000000#32))
        (broadcastTo S2048x128 (shapeCast S1x128 b shapeCasts_S1x128_S1x128) broadcasts_S1x128_S2048x128))
      (broadcast S2048x128 (Scalar.ofBits (F := Ideal) .f32 0x00000000#32))
    = hidden (h : S2048x128.Idx → EReal) (w : S128x128.Idx → EReal) (b : S1x128.Idx → EReal) := by
  funext i
  obtain ⟨r, j, rfl⟩ : ∃ (r : Fin 2048) (j : Fin 128), i = ix2 r j := ⟨i 0, i 1, eq_ix2 i⟩
  rw [shapeCast_self, shapeCast_self]
  exact hidden_apply dot_S2048x128_S128x128_S2048x128_1_0_0_1_n_n rfl rfl rfl rfl mid_lhs0 mid_rhs1 none
    (truncf .bf16 h bitsLt_bf16_f32) w b broadcasts_S1x128_S2048x128 r j

/-- The last layer, not rectified, at an entry. -/
theorem last_layer (h : FVec Ideal S2048x128 .f32) (w : FVec Ideal S128x128 .bf16) (b : FVec Ideal S1x128 .f32)
    (r : Fin 2048) (j : Fin 128) :
    addf (matmul dot_S2048x128_S128x128_S2048x128_1_0_0_1_n_n none (truncf .bf16 h bitsLt_bf16_f32)
          (shapeCast S128x128 w shapeCasts_S128x128_S128x128) (constant (F := Ideal) S2048x128 .f32 0x00000000#32))
        (broadcastTo S2048x128 (shapeCast S1x128 b shapeCasts_S1x128_S1x128) broadcasts_S1x128_S2048x128) (ix2 r j)
    = entry (h : S2048x128.Idx → EReal) (w : S128x128.Idx → EReal) (b : S1x128.Idx → EReal) r j := by
  rw [shapeCast_self, shapeCast_self]
  exact dense_apply dot_S2048x128_S128x128_S2048x128_1_0_0_1_n_n rfl rfl rfl rfl mid_lhs0 mid_rhs1 none
    (truncf .bf16 h bitsLt_bf16_f32) w b broadcasts_S1x128_S2048x128 r j

/-- The target network on a tile, as the body computes it, at an entry. -/
theorem target_out (x0 : FVec Ideal S2048x64 .f32) (x1 : FVec Ideal S64x128 .bf16) (x2 : FVec Ideal S1x128 .f32)
    (x3 : FVec Ideal S128x128 .bf16) (x4 : FVec Ideal S1x128 .f32) (x5 : FVec Ideal S128x128 .bf16) (x6 : FVec Ideal S1x128 .f32)
    (r : Fin 2048) (j : Fin 128) :
    k0_pay3 (F := Ideal) x0 x1 x2 x3 x4 x5 x6 (ix2 r j) = Net.out ⟨x1, x2, x3, x4, x5, x6⟩ (x0 : S2048x64.Idx → EReal) r j := by
  unfold k0_pay3 k0_pay2
  dsimp only
  rw [first_layer x0 x1 x2, next_layer _ x3 x4]
  exact last_layer _ x5 x6 r j

/-- Entry r of what the body stores is the reward of row r of the tile. -/
theorem tile_reward (x0 : FVec Ideal S2048x64 .f32) (x1 : FVec Ideal S64x128 .bf16) (x2 : FVec Ideal S1x128 .f32)
    (x3 : FVec Ideal S128x128 .bf16) (x4 : FVec Ideal S1x128 .f32) (x5 : FVec Ideal S128x128 .bf16) (x6 : FVec Ideal S1x128 .f32)
    (x7 : FVec Ideal S64x128 .bf16) (x8 : FVec Ideal S1x128 .f32)
    (x9 : FVec Ideal S128x128 .bf16) (x10 : FVec Ideal S1x128 .f32) (x11 : FVec Ideal S128x128 .bf16) (x12 : FVec Ideal S1x128 .f32)
    (r : Fin 2048) :
    k0_pay1 (F := Ideal) (k0_pay3 x0 x1 x2 x3 x4 x5 x6) (k0_pay4 x0 x7) (k0_pay5 x8) x9 x10 x11 x12 (ix1 r)
      = reward ⟨x1, x2, x3, x4, x5, x6⟩ ⟨x7, x8, x9, x10, x11, x12⟩ (x0 : S2048x64.Idx → EReal) r := by
  unfold k0_pay1 k0_pay4 k0_pay5 k0_pay2
  dsimp only
  rw [divf_apply, broadcast_apply, first_layer x0 x7 x8, next_layer _ x9 x10]
  unfold reward
  refine congrArg₂ Ideal.div ?_ rfl
  refine (multiReduction_add_rows_apply _ reduces_S2048x128_S2048 _ _ r).trans ?_
  refine Finset.sum_congr rfl fun j _ => ?_
  rw [mulf_apply, subf_apply, target_out x0 x1 x2 x3 x4 x5 x6 r j, last_layer _ x11 x12 r j]
  rfl

end Cert.KernelIdeal.Tile

end
-- ==== Proof.KRewards.lean ====
/-
  The reward vector the first pass leaves. The grid's point t takes rows 2048·t … 2048·t + 2047 of the
  observations and the whole of every weight operand, and writes entries 2048·t … 2048·t + 2047 of the result; a
  row's reward depends on that row only, so what point t writes is that stretch of the reward vector of the whole
  observation matrix, and the 256 points between them write all of it.
-/
import proofs.«102708_j48052094107731_1_alg».proof.Proof.KIn
import proofs.«102708_j48052094107731_1_alg».proof.Proof.KPay

set_option maxRecDepth 16384

noncomputable section

namespace Cert.KernelIdeal.Rewards

open Cert.KernelIdeal Cert.KernelIdeal.Gen Cert.KernelIdeal.Entry Cert.KernelIdeal.Tile Cert.Rnd
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl

/-- The two networks of the launched weights. -/
def target (c : Dev nD) : Net :=
  netOf (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
def predictor (c : Dev nD) : Net :=
  netOf (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))

/-- The reward vector of the launched observations. -/
def R (c : Dev nD) : S524288.Idx → EReal :=
  rewards (target m c) (predictor m c) (m ((c : Thread nD τ).loc main_arg0) : S524288x64.Idx → EReal)

/-- The printed index maps over the grid: the observations' and the result's block index is the point, every
    weight operand's is zero. -/
theorem idx_facts : ∀ t : Fin cfg0.N, win0_13.index t (0 : Fin 1) = t.val
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

/-- Window 1's block is its whole array at every point. -/
theorem blk1 (c : Dev nD) (t : Fin cfg0.N) (y : S64x128.Idx) : iblk0 (V1 m ρ) c 1 t y = V1 m ρ c main_v1 y := by
  obtain ⟨e0, e1, e2, e3, e4, e5, e6, e7, e8, e9, e10, e11, e12, e13, e14, e15, e16, e17, e18, e19, e20, e21, e22, e23, e24, e25, e26⟩ := idx_facts t
  show V1 m ρ c main_v1 (((cfg0.win 1).blk t).view.emb y) = V1 m ρ c main_v1 y
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- Window 2's block is its whole array at every point. -/
theorem blk2 (c : Dev nD) (t : Fin cfg0.N) (y : S1x128.Idx) : iblk0 (V1 m ρ) c 2 t y = V1 m ρ c main_v2 y := by
  obtain ⟨e0, e1, e2, e3, e4, e5, e6, e7, e8, e9, e10, e11, e12, e13, e14, e15, e16, e17, e18, e19, e20, e21, e22, e23, e24, e25, e26⟩ := idx_facts t
  show V1 m ρ c main_v2 (((cfg0.win 2).blk t).view.emb y) = V1 m ρ c main_v2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block is its whole array at every point. -/
theorem blk3 (c : Dev nD) (t : Fin cfg0.N) (y : S128x128.Idx) : iblk0 (V1 m ρ) c 3 t y = V1 m ρ c main_v4 y := by
  obtain ⟨e0, e1, e2, e3, e4, e5, e6, e7, e8, e9, e10, e11, e12, e13, e14, e15, e16, e17, e18, e19, e20, e21, e22, e23, e24, e25, e26⟩ := idx_facts t
  show V1 m ρ c main_v4 (((cfg0.win 3).blk t).view.emb y) = V1 m ρ c main_v4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is its whole array at every point. -/
theorem blk4 (c : Dev nD) (t : Fin cfg0.N) (y : S1x128.Idx) : iblk0 (V1 m ρ) c 4 t y = V1 m ρ c main_v5 y := by
  obtain ⟨e0, e1, e2, e3, e4, e5, e6, e7, e8, e9, e10, e11, e12, e13, e14, e15, e16, e17, e18, e19, e20, e21, e22, e23, e24, e25, e26⟩ := idx_facts t
  show V1 m ρ c main_v5 (((cfg0.win 4).blk t).view.emb y) = V1 m ρ c main_v5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array at every point. -/
theorem blk5 (c : Dev nD) (t : Fin cfg0.N) (y : S128x128.Idx) : iblk0 (V1 m ρ) c 5 t y = V1 m ρ c main_v7 y := by
  obtain ⟨e0, e1, e2, e3, e4, e5, e6, e7, e8, e9, e10, e11, e12, e13, e14, e15, e16, e17, e18, e19, e20, e21, e22, e23, e24, e25, e26⟩ := idx_facts t
  show V1 m ρ c main_v7 (((cfg0.win 5).blk t).view.emb y) = V1 m ρ c main_v7 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is its whole array at every point. -/
theorem blk6 (c : Dev nD) (t : Fin cfg0.N) (y : S1x128.Idx) : iblk0 (V1 m ρ) c 6 t y = V1 m ρ c main_v8 y := by
  obtain ⟨e0, e1, e2, e3, e4, e5, e6, e7, e8, e9, e10, e11, e12, e13, e14, e15, e16, e17, e18, e19, e20, e21, e22, e23, e24, e25, e26⟩ := idx_facts t
  show V1 m ρ c main_v8 (((cfg0.win 6).blk t).view.emb y) = V1 m ρ c main_v8 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem blk7 (c : Dev nD) (t : Fin cfg0.N) (y : S64x128.Idx) : iblk0 (V1 m ρ) c 7 t y = V1 m ρ c main_v10 y := by
  obtain ⟨e0, e1, e2, e3, e4, e5, e6, e7, e8, e9, e10, e11, e12, e13, e14, e15, e16, e17, e18, e19, e20, e21, e22, e23, e24, e25, e26⟩ := idx_facts t
  show V1 m ρ c main_v10 (((cfg0.win 7).blk t).view.emb y) = V1 m ρ c main_v10 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 128 + 1 * (y 1).val = (y 1).val; omega

/-- Window 8's block is its whole array at every point. -/
theorem blk8 (c : Dev nD) (t : Fin cfg0.N) (y : S1x128.Idx) : iblk0 (V1 m ρ) c 8 t y = V1 m ρ c main_v11 y := by
  obtain ⟨e0, e1, e2, e3, e4, e5, e6, e7, e8, e9, e10, e11, e12, e13, e14, e15, e16, e17, e18, e19, e20, e21, e22, e23, e24, e25, e26⟩ := idx_facts t
  show V1 m ρ c main_v11 (((cfg0.win 8).blk t).view.emb y) = V1 m ρ c main_v11 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block is its whole array at every point. -/
theorem blk9 (c : Dev nD) (t : Fin cfg0.N) (y : S128x128.Idx) : iblk0 (V1 m ρ) c 9 t y = V1 m ρ c main_v13 y := by
  obtain ⟨e0, e1, e2, e3, e4, e5, e6, e7, e8, e9, e10, e11, e12, e13, e14, e15, e16, e17, e18, e19, e20, e21, e22, e23, e24, e25, e26⟩ := idx_facts t
  show V1 m ρ c main_v13 (((cfg0.win 9).blk t).view.emb y) = V1 m ρ c main_v13 y
  refine congrArg _ (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10's block is its whole array at every point. -/
theorem blk10 (c : Dev nD) (t : Fin cfg0.N) (y : S1x128.Idx) : iblk0 (V1 m ρ) c 10 t y = V1 m ρ c main_v14 y := by
  obtain ⟨e0, e1, e2, e3, e4, e5, e6, e7, e8, e9, e10, e11, e12, e13, e14, e15, e16, e17, e18, e19, e20, e21, e22, e23, e24, e25, e26⟩ := idx_facts t
  show V1 m ρ c main_v14 (((cfg0.win 10).blk t).view.emb y) = V1 m ρ c main_v14 y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11's block is its whole array at every point. -/
theorem blk11 (c : Dev nD) (t : Fin cfg0.N) (y : S128x128.Idx) : iblk0 (V1 m ρ) c 11 t y = V1 m ρ c main_v16 y := by
  obtain ⟨e0, e1, e2, e3, e4, e5, e6, e7, e8, e9, e10, e11, e12, e13, e14, e15, e16, e17, e18, e19, e20, e21, e22, e23, e24, e25, e26⟩ := idx_facts t
  show V1 m ρ c main_v16 (((cfg0.win 11).blk t).view.emb y) = V1 m ρ c main_v16 y
  refine congrArg _ (funext fun a => Fin.ext ?_)
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12's block is its whole array at every point. -/
theorem blk12 (c : Dev nD) (t : Fin cfg0.N) (y : S1x128.Idx) : iblk0 (V1 m ρ) c 12 t y = V1 m ρ c main_v17 y := by
  obtain ⟨e0, e1, e2, e3, e4, e5, e6, e7, e8, e9, e10, e11, e12, e13, e14, e15, e16, e17, e18, e19, e20, e21, e22, e23, e24, e25, e26⟩ := idx_facts t
  show V1 m ρ c main_v17 (((cfg0.win 12).blk t).view.emb y) = V1 m ρ c main_v17 y
  refine congrArg _ (funext fun a => Fin.ext ?_)
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Row r of point t's block of the observations is row 2048·t + r of the launched observations. -/
theorem blk0 (c : Dev nD) (t : Fin cfg0.N) (y : S2048x64.Idx) (i : S524288x64.Idx)
    (h0 : (i 0).val = t.val * 2048 + (y 0).val) (h1 : (i 1).val = (y 1).val) :
    iblk0 (V1 m ρ) c 0 t y = m ((c : Thread nD τ).loc main_arg0) i := by
  obtain ⟨e0, e1, e2, e3, e4, e5, e6, e7, e8, e9, e10, e11, e12, e13, e14, e15, e16, e17, e18, e19, e20, e21, e22, e23, e24, e25, e26⟩ := idx_facts t
  show V1 m ρ c main_arg0 (((cfg0.win 0).blk t).view.emb y) = _
  refine (congrFun (at_obs m ρ c) _).trans (congrArg _ (funext fun a => Fin.ext ?_))
  match a with
  | ⟨0, _⟩ => show win0_0.index t (0 : Fin 2) * 2048 + 1 * (y 0).val = (i 0).val; omega
  | ⟨1, _⟩ => show win0_0.index t (1 : Fin 2) * 64 + 1 * (y 1).val = (i 1).val; omega

/-- Two networks with equal weights are one network. -/
theorem net_congr {a1 b1 : Mat 64 128} {a2 b2 : Mat 1 128} {a3 b3 : Mat 128 128} {a4 b4 : Mat 1 128} {a5 b5 : Mat 128 128}
    {a6 b6 : Mat 1 128} (h1 : a1 = b1) (h2 : a2 = b2) (h3 : a3 = b3) (h4 : a4 = b4) (h5 : a5 = b5) (h6 : a6 = b6) :
    Net.mk a1 a2 a3 a4 a5 a6 = Net.mk b1 b2 b3 b4 b5 b6 := by
  subst h1 h2 h3 h4 h5 h6; rfl

/-- The target network a point reads is the launched one. -/
theorem target_blocks (c : Dev nD) (t : Fin cfg0.N) :
    Net.mk (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) = target m c :=
  net_congr (funext fun y => (blk1 m ρ c t y).trans (congrFun (at_main_v1 m ρ c) y))
    (funext fun y => (blk2 m ρ c t y).trans (congrFun (at_main_v2 m ρ c) y))
    (funext fun y => (blk3 m ρ c t y).trans (congrFun (at_main_v4 m ρ c) y))
    (funext fun y => (blk4 m ρ c t y).trans (congrFun (at_main_v5 m ρ c) y))
    (funext fun y => (blk5 m ρ c t y).trans (congrFun (at_main_v7 m ρ c) y))
    (funext fun y => (blk6 m ρ c t y).trans (congrFun (at_main_v8 m ρ c) y))

/-- So is the predictor. -/
theorem predictor_blocks (c : Dev nD) (t : Fin cfg0.N) :
    Net.mk (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) = predictor m c :=
  net_congr (funext fun y => (blk7 m ρ c t y).trans (congrFun (at_main_v10 m ρ c) y))
    (funext fun y => (blk8 m ρ c t y).trans (congrFun (at_main_v11 m ρ c) y))
    (funext fun y => (blk9 m ρ c t y).trans (congrFun (at_main_v13 m ρ c) y))
    (funext fun y => (blk10 m ρ c t y).trans (congrFun (at_main_v14 m ρ c) y))
    (funext fun y => (blk11 m ρ c t y).trans (congrFun (at_main_v16 m ρ c) y))
    (funext fun y => (blk12 m ρ c t y).trans (congrFun (at_main_v17 m ρ c) y))

/-- What point t writes back is its stretch of the reward vector. -/
theorem flushed_eq (c : Dev nD) (t : Fin cfg0.N) :
    (dat0 (V1 m ρ) c).flushed 13 t = ((cfg0.win 13).blk t).view.read (Elt Ideal) (R m c) := by
  obtain ⟨e0, e1, e2, e3, e4, e5, e6, e7, e8, e9, e10, e11, e12, e13, e14, e15, e16, e17, e18, e19, e20, e21, e22, e23, e24, e25, e26⟩ := idx_facts t
  show (cfg0.win 13).cut (grid0.coords t) ((dat0 (V1 m ρ) c).after 13 t) = _
  rw [after0_13]
  unfold out0_13
  rw [View.canon_unit_zero zeros1]
  simp only [View.ld_unit_zero (S := S2048x64) zeros2, View.ld_unit_zero (S := S64x128) zeros2,
    View.ld_unit_zero (S := S1x128) zeros2, View.ld_unit_zero (S := S128x128) zeros2]
  funext j
  obtain ⟨r, rfl⟩ : ∃ r : Fin 2048, j = ix1 r := ⟨j 0, eq_ix1 j⟩
  have hq : ((((cfg0.win 13).blk t).view.emb (ix1 r)) 0).val = t.val * 2048 + r.val := by
    show win0_13.index t (0 : Fin 1) * 2048 + 1 * r.val = _; omega
  refine (tile_reward (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) r).trans ?_
  refine (congrArg₂ (fun T P => reward T P (iblk0 (V1 m ρ) c 0 t) r) (target_blocks m ρ c t) (predictor_blocks m ρ c t)).trans ?_
  exact reward_congr (target m c) (predictor m c) _ _ r _ (fun k => blk0 m ρ c t (ix2 r k) (ix2 _ k) hq rfl)

/-- An entry is in point t's block iff it lies in the point's stretch. -/
theorem mem_blk (t : Fin cfg0.N) (i : S524288.Idx) :
    i ∈ ((cfg0.win 13).blk t).view.set ↔ ∀ a : Fin 1, win0_13.index t a * S2048.size a ≤ (i a).val ∧ (i a).val < win0_13.index t a * S2048.size a + S2048.size a := by
  show i ∈ ((View.whole main_v18).slice (win0_13.rect t)).set ↔ _
  rw [View.set_slice_whole, Rect.mem_set_unit]
  exact Iff.rfl

/-- Every entry is written by the point its stretch belongs to. -/
theorem cover (i : S524288.Idx) : ∃ t : Fin cfg0.N, (cfg0.win 13).flush t = true ∧ i ∈ ((cfg0.win 13).blk t).view.set := by
  have hi : (i 0).val < 524288 := (i 0).isLt
  have hN : cfg0.N = 256 := N_0
  obtain ⟨t, ht⟩ : ∃ t : Fin cfg0.N, t.val = (i 0).val / 2048 := ⟨⟨(i 0).val / 2048, by rw [hN]; omega⟩, rfl⟩
  refine ⟨t, flush0_13 t, ?_⟩
  obtain ⟨e0, -⟩ := idx_facts t
  rw [mem_blk]
  intro a
  match a with
  | ⟨0, _⟩ => show win0_13.index t (0 : Fin 1) * 2048 ≤ (i 0).val ∧ (i 0).val < win0_13.index t (0 : Fin 1) * 2048 + 2048; omega

/-- The first pass leaves the reward vector. -/
theorem final (c : Dev nD) : (dat0 (V1 m ρ) c).arrAt 13 cfg0.N = R m c :=
  (dat0 (V1 m ρ) c).arrAt_eq_of_cover 13 (R m c) (fun t _ => flushed_eq m ρ c t) cover

end Cert.KernelIdeal.Rewards

end
-- ==== Proof.LibPairRow.lean ====
/-
  Two one-entry vectors joined along their axis into a vector of two entries and reshaped to one row [1, 2] — the
  spelling of jnp.concatenate([a, b]).reshape(1, 2) for a, b of shape [1] —, read at an entry for any entry type:
  the row's entry (0, 0) is the first vector's entry and its entry (0, 1) the second's.
-/
import Idealize.ShloMosaic.Lib.ValueIdx
import Idealize.ShloMosaic.Lib.ValueLayout
import Idealize.ShloMosaic.Lib.Pipeline.Value

noncomputable section

namespace Idealize.ShloMosaic.PairRow

open Idealize.ShloMosaic Idealize.ShloMosaic.ValueIdx

variable {α : Type}

/-- The row's first entry. -/
theorem pair_row_left (x₁ x₂ : (⟨1, ![1]⟩ : Shape).Idx → α)
    (hc : Shape.Concatenates [(⟨1, ![1]⟩ : Shape), (⟨1, ![1]⟩ : Shape)] ⟨1, ![2]⟩ 0)
    (hs : (⟨1, ![2]⟩ : Shape).ShapeCasts ⟨2, ![1, 2]⟩) :
    shapeCast (⟨2, ![1, 2]⟩ : Shape) (concatenate (⟨1, ![2]⟩ : Shape) 0 [⟨⟨1, ![1]⟩, x₁⟩, ⟨⟨1, ![1]⟩, x₂⟩] hc) hs
      (ix2 (0 : Fin 1) (0 : Fin 2)) = x₁ (ix1 (0 : Fin 1)) := by
  rw [shapeCast_a_1a_apply]
  exact concatenate_pair_apply_left 0 x₁ x₂ hc (ix1 (0 : Fin 2)) rfl (ix1 (0 : Fin 1)) (fun b => match b with | ⟨0, _⟩ => rfl)

/-- The row's second entry. -/
theorem pair_row_right (x₁ x₂ : (⟨1, ![1]⟩ : Shape).Idx → α)
    (hc : Shape.Concatenates [(⟨1, ![1]⟩ : Shape), (⟨1, ![1]⟩ : Shape)] ⟨1, ![2]⟩ 0)
    (hs : (⟨1, ![2]⟩ : Shape).ShapeCasts ⟨2, ![1, 2]⟩) :
    shapeCast (⟨2, ![1, 2]⟩ : Shape) (concatenate (⟨1, ![2]⟩ : Shape) 0 [⟨⟨1, ![1]⟩, x₁⟩, ⟨⟨1, ![1]⟩, x₂⟩] hc) hs
      (ix2 (0 : Fin 1) (1 : Fin 2)) = x₂ (ix1 (0 : Fin 1)) := by
  rw [shapeCast_a_1a_apply]
  exact concatenate_pair_apply_right 0 x₁ x₂ hc (ix1 (1 : Fin 2)) rfl rfl (ix1 (0 : Fin 1))
    (fun b hb => match b, hb with | ⟨0, _⟩, hb => absurd rfl hb) rfl

end Idealize.ShloMosaic.PairRow

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.KStats.lean ====
/-
  The host statements between the two passes, read a stretch at a time from any starting memory: the batch mean
  and the sum of squared deviations of the reward vector; the new count, the difference of the means and the new
  mean; the new second moment; the test of the count, the root and the constant one; the choice between the last
  two; and the row of the new mean and the divisor. Read in stretches, a value that several later statements use
  is computed once.
-/
import proofs.«102708_j48052094107731_1_alg».proof.Proof.Gen.KernelIdeal.Frame
import proofs.«102708_j48052094107731_1_alg».proof.Proof.LibStretches
import proofs.«102708_j48052094107731_1_alg».proof.Proof.Spec

noncomputable section

namespace Cert.KernelIdeal.Stretch

open Cert.KernelIdeal Cert.KernelIdeal.Gen Cert.Rnd
open Idealize.ShloMosaic Idealize.ShloMosaic.TcCoe Idealize.SL.Sem Idealize.ShloMosaic.StableHlo

/-- The shape facts of the sum over the reward vector and of the scalar broadcasts. -/
theorem sides : Sides := ⟨reducesTo_S524288_S_d0, h_S_, bcast_S_S1, bcast_S_S524288⟩

/-- The statistics' statements in four stretches: the batch's mean and squared deviations; the count and the mean;
    the second moment; the standard deviation's pieces. -/
abbrev stretchA : List (HloOp τ sig (Elt Ideal)) := (hostOps1 (F := Ideal)).take 9
abbrev stretchB : List (HloOp τ sig (Elt Ideal)) := ((hostOps1 (F := Ideal)).drop 9).take 10
abbrev stretchC : List (HloOp τ sig (Elt Ideal)) := ((hostOps1 (F := Ideal)).drop 19).take 9
abbrev stretchD : List (HloOp τ sig (Elt Ideal)) := (hostOps1 (F := Ideal)).drop 28

theorem stretches : hostOps1 (F := Ideal) = stretchA ++ (stretchB ++ (stretchC ++ stretchD)) := rfl

/-- The memory after the statistics' statements, stretch by stretch. -/
theorem after_stats (U : Valuation τ sig (Elt Ideal)) :
    after (hostOps1 (F := Ideal)) U = after stretchD (after stretchC (after stretchB (after stretchA U))) := by
  rw [stretches, Stretches.after_append, Stretches.after_append, Stretches.after_append]

/-- The batch mean. -/
theorem a_mean (U : Valuation τ sig (Elt Ideal)) : after stretchA U (no_index (Proc.devRef .tc main_v20)) = mean sides (U (Proc.devRef .tc main_v18)) := by
  simp only [stretchA, stretchB, stretchC, stretchD, hostOps1, List.take_succ_cons, List.take_zero, List.drop_succ_cons, List.drop_zero]
  after_results
  rfl

/-- The batch's sum of squared deviations. -/
theorem a_m2 (U : Valuation τ sig (Elt Ideal)) : after stretchA U (no_index (Proc.devRef .tc main_v24)) = m2 sides (U (Proc.devRef .tc main_v18)) := by
  simp only [stretchA, stretchB, stretchC, stretchD, hostOps1, List.take_succ_cons, List.take_zero, List.drop_succ_cons, List.drop_zero]
  after_results
  rfl

/-- Not written in this stretch. -/
theorem a_keep_main_arg1 (U : Valuation τ sig (Elt Ideal)) : after stretchA U (no_index (Proc.devRef .tc main_arg1)) = U (Proc.devRef .tc main_arg1) := by
  simp only [stretchA, stretchB, stretchC, stretchD, hostOps1, List.take_succ_cons, List.take_zero, List.drop_succ_cons, List.drop_zero]
  after_results

/-- Not written in this stretch. -/
theorem a_keep_main_arg2 (U : Valuation τ sig (Elt Ideal)) : after stretchA U (no_index (Proc.devRef .tc main_arg2)) = U (Proc.devRef .tc main_arg2) := by
  simp only [stretchA, stretchB, stretchC, stretchD, hostOps1, List.take_succ_cons, List.take_zero, List.drop_succ_cons, List.drop_zero]
  after_results

/-- Not written in this stretch. -/
theorem a_keep_main_arg3 (U : Valuation τ sig (Elt Ideal)) : after stretchA U (no_index (Proc.devRef .tc main_arg3)) = U (Proc.devRef .tc main_arg3) := by
  simp only [stretchA, stretchB, stretchC, stretchD, hostOps1, List.take_succ_cons, List.take_zero, List.drop_succ_cons, List.drop_zero]
  after_results

/-- The new count. -/
theorem b_count (U : Valuation τ sig (Elt Ideal)) : after stretchB U (no_index (Proc.devRef .tc main_v26)) = count sides (U (Proc.devRef .tc main_arg3)) := by
  simp only [stretchA, stretchB, stretchC, stretchD, hostOps1, List.take_succ_cons, List.take_zero, List.drop_succ_cons, List.drop_zero]
  after_results
  rfl

/-- The batch mean less the running mean. -/
theorem b_delta (U : Valuation τ sig (Elt Ideal)) : after stretchB U (no_index (Proc.devRef .tc main_v28)) = (subf (spread1 sides (U (Proc.devRef .tc main_v20))) (U (Proc.devRef .tc main_arg1))) := by
  simp only [stretchA, stretchB, stretchC, stretchD, hostOps1, List.take_succ_cons, List.take_zero, List.drop_succ_cons, List.drop_zero]
  after_results
  rfl

/-- The new mean. -/
theorem b_mean (U : Valuation τ sig (Elt Ideal)) : after stretchB U (no_index (Proc.devRef .tc main_v32)) = addf (U (Proc.devRef .tc main_arg1)) (Host.divf (F := Ideal) (mulf (subf (spread1 sides (U (Proc.devRef .tc main_v20))) (U (Proc.devRef .tc main_arg1))) (spread1 sides (lit 0x49000000#32))) (count sides (U (Proc.devRef .tc main_arg3)))) := by
  simp only [stretchA, stretchB, stretchC, stretchD, hostOps1, List.take_succ_cons, List.take_zero, List.drop_succ_cons, List.drop_zero]
  after_results
  rfl

/-- Not written in this stretch. -/
theorem b_keep_main_v24 (U : Valuation τ sig (Elt Ideal)) : after stretchB U (no_index (Proc.devRef .tc main_v24)) = U (Proc.devRef .tc main_v24) := by
  simp only [stretchA, stretchB, stretchC, stretchD, hostOps1, List.take_succ_cons, List.take_zero, List.drop_succ_cons, List.drop_zero]
  after_results

/-- Not written in this stretch. -/
theorem b_keep_main_arg2 (U : Valuation τ sig (Elt Ideal)) : after stretchB U (no_index (Proc.devRef .tc main_arg2)) = U (Proc.devRef .tc main_arg2) := by
  simp only [stretchA, stretchB, stretchC, stretchD, hostOps1, List.take_succ_cons, List.take_zero, List.drop_succ_cons, List.drop_zero]
  after_results

/-- Not written in this stretch. -/
theorem b_keep_main_arg3 (U : Valuation τ sig (Elt Ideal)) : after stretchB U (no_index (Proc.devRef .tc main_arg3)) = U (Proc.devRef .tc main_arg3) := by
  simp only [stretchA, stretchB, stretchC, stretchD, hostOps1, List.take_succ_cons, List.take_zero, List.drop_succ_cons, List.drop_zero]
  after_results

/-- The new second moment. -/
theorem c_m2 (U : Valuation τ sig (Elt Ideal)) : after stretchC U (no_index (Proc.devRef .tc main_v40)) = addf (addf (U (Proc.devRef .tc main_arg2)) (spread1 sides (U (Proc.devRef .tc main_v24)))) (Host.divf (F := Ideal) (mulf (mulf (mulf (U (Proc.devRef .tc main_v28)) (U (Proc.devRef .tc main_v28))) (U (Proc.devRef .tc main_arg3))) (spread1 sides (lit 0x49000000#32))) (U (Proc.devRef .tc main_v26))) := by
  simp only [stretchA, stretchB, stretchC, stretchD, hostOps1, List.take_succ_cons, List.take_zero, List.drop_succ_cons, List.drop_zero]
  after_results
  rfl

/-- Not written in this stretch. -/
theorem c_keep_main_v26 (U : Valuation τ sig (Elt Ideal)) : after stretchC U (no_index (Proc.devRef .tc main_v26)) = U (Proc.devRef .tc main_v26) := by
  simp only [stretchA, stretchB, stretchC, stretchD, hostOps1, List.take_succ_cons, List.take_zero, List.drop_succ_cons, List.drop_zero]
  after_results

/-- Not written in this stretch. -/
theorem c_keep_main_v32 (U : Valuation τ sig (Elt Ideal)) : after stretchC U (no_index (Proc.devRef .tc main_v32)) = U (Proc.devRef .tc main_v32) := by
  simp only [stretchA, stretchB, stretchC, stretchD, hostOps1, List.take_succ_cons, List.take_zero, List.drop_succ_cons, List.drop_zero]
  after_results

/-- Whether the new count exceeds one. -/
theorem d_test (U : Valuation τ sig (Elt Ideal)) : after stretchD U (no_index (Proc.devRef .tc main_v42)) = cmpf .ogt (U (Proc.devRef .tc main_v26)) (spread1 sides (lit 0x3F800000#32)) := by
  simp only [stretchA, stretchB, stretchC, stretchD, hostOps1, List.take_succ_cons, List.take_zero, List.drop_succ_cons, List.drop_zero]
  after_results
  rfl

/-- The root of the second moment over the count less one. -/
theorem d_root (U : Valuation τ sig (Elt Ideal)) : after stretchD U (no_index (Proc.devRef .tc main_v46)) = Host.sqrt (F := Ideal) (Host.divf (F := Ideal) (U (Proc.devRef .tc main_v40)) (subf (U (Proc.devRef .tc main_v26)) (spread1 sides (lit 0x3F800000#32)))) := by
  simp only [stretchA, stretchB, stretchC, stretchD, hostOps1, List.take_succ_cons, List.take_zero, List.drop_succ_cons, List.drop_zero]
  after_results
  rfl

/-- The constant one. -/
theorem d_one (U : Valuation τ sig (Elt Ideal)) : after stretchD U (no_index (Proc.devRef .tc main_v47)) = spread1 sides (lit 0x3F800000#32) := by
  simp only [stretchA, stretchB, stretchC, stretchD, hostOps1, List.take_succ_cons, List.take_zero, List.drop_succ_cons, List.drop_zero]
  after_results
  rfl

/-- Not written in this stretch. -/
theorem d_keep_main_v32 (U : Valuation τ sig (Elt Ideal)) : after stretchD U (no_index (Proc.devRef .tc main_v32)) = U (Proc.devRef .tc main_v32) := by
  simp only [stretchA, stretchB, stretchC, stretchD, hostOps1, List.take_succ_cons, List.take_zero, List.drop_succ_cons, List.drop_zero]
  after_results

/-- The choice between the root and one. -/
theorem e_std (U : Valuation τ sig (Elt Ideal)) : after (hostOps1_1 (F := Ideal)) U (no_index (Proc.devRef .tc main_v48)) = select (U (Proc.devRef .tc main_v42)) (U (Proc.devRef .tc main_v46)) (U (Proc.devRef .tc main_v47)) := by
  simp only [hostOps1_1]
  after_results
  rfl

/-- Not written by the choice. -/
theorem e_keep_main_v32 (U : Valuation τ sig (Elt Ideal)) : after (hostOps1_1 (F := Ideal)) U (no_index (Proc.devRef .tc main_v32)) = U (Proc.devRef .tc main_v32) := by
  simp only [hostOps1_1]
  after_results

/-- The parameter row: the new mean and the standard deviation plus the small constant, joined and set under a
    unit axis. -/
theorem f_row (U : Valuation τ sig (Elt Ideal)) : (after (hostOps1_2 (F := Ideal)) U (no_index (Proc.devRef .tc main_v52)) : S1x2.Idx → EReal)
    = shapeCast S1x2 (concatenate S2 0 [⟨S1, (U (Proc.devRef .tc main_v32))⟩, ⟨S1, addf (U (Proc.devRef .tc main_v48)) (spread1 sides (lit 0x322BCC77#32))⟩]
        concatenates_S1_S1_S2_d0) shapeCasts_S2_S1x2 := by
  simp only [hostOps1_2]
  after_results
  rfl

end Cert.KernelIdeal.Stretch

end
-- ==== Proof.KTail.lean ====
/-
  Between the two passes. The host statements after the first pass compute the statistics of the reward vector
  and join the new mean and the divisor into the two-entry row the second pass reads; they leave the reward vector
  as the first pass wrote it. So the second pass is entered with the reward vector of the launched observations
  and with the row (new mean, divisor) of that vector and the launched running statistics.
-/
import proofs.«102708_j48052094107731_1_alg».proof.Proof.KRewards
import proofs.«102708_j48052094107731_1_alg».proof.Proof.LibPairRow
import proofs.«102708_j48052094107731_1_alg».proof.Proof.KStats
import Idealize.ShloMosaic.Lib.StableHlo.Run

set_option maxRecDepth 16384

noncomputable section

namespace Cert.KernelIdeal.Stats

open Cert.KernelIdeal Cert.KernelIdeal.Gen Cert.KernelIdeal.Rewards Cert.KernelIdeal.Stretch Cert.Rnd Idealize.ShloMosaic.PairRow
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The first pass leaves the running mean as launched. -/
theorem kept_mean (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
/-- … the running second moment … -/
theorem kept_m2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results
/-- … and the running count. -/
theorem kept_count (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

/-- What the first pass leaves in its result is the reward vector. -/
theorem left_rewards (c : Dev nD) : W2 m ρ c (Proc.devRef .tc main_v18) = R m c :=
  (W2_arr m ρ c 13).trans (final m ρ c)

/-- The host statements between the passes do not write the reward vector. -/
theorem entry_rewards (c : Dev nD) : V5 m ρ c main_v18 = W2 m ρ c (Proc.devRef .tc main_v18) := by
  show StableHlo.after hostOps1_2 (StableHlo.after hostOps1_1 (StableHlo.after hostOps1 (W2 m ρ c))) (Proc.devRef .tc main_v18) = _
  after_results_simp

/-- The first entry of the parameter row the second pass is entered with: the new mean. -/
theorem entry_mean (c : Dev nD) : (V5 m ρ c main_v52 : S1x2.Idx → EReal) (ix2 (0 : Fin 1) (0 : Fin 2))
    = newMean sides (R m c) (m ((c : Thread nD τ).loc main_arg1)) (m ((c : Thread nD τ).loc main_arg3)) (ix1 (0 : Fin 1)) := by
  show (StableHlo.after hostOps1_2 (StableHlo.after hostOps1_1 (StableHlo.after hostOps1 (W2 m ρ c))) (Proc.devRef .tc main_v52) : S1x2.Idx → EReal) _ = _
  rw [after_stats, f_row, pair_row_left]
  simp only [e_keep_main_v32, d_keep_main_v32, c_keep_main_v32, b_mean, a_mean, a_keep_main_arg1, a_keep_main_arg3]
  rw [left_rewards, kept_mean, kept_count]
  rfl

/-- Its second entry: the divisor. -/
theorem entry_denom (c : Dev nD) : (V5 m ρ c main_v52 : S1x2.Idx → EReal) (ix2 (0 : Fin 1) (1 : Fin 2))
    = denom sides (R m c) (m ((c : Thread nD τ).loc main_arg1)) (m ((c : Thread nD τ).loc main_arg2))
        (m ((c : Thread nD τ).loc main_arg3)) (ix1 (0 : Fin 1)) := by
  show (StableHlo.after hostOps1_2 (StableHlo.after hostOps1_1 (StableHlo.after hostOps1 (W2 m ρ c))) (Proc.devRef .tc main_v52) : S1x2.Idx → EReal) _ = _
  rw [after_stats, f_row, pair_row_right]
  simp only [e_std, d_test, d_root, d_one, c_m2, c_keep_main_v26, b_count, b_delta, b_keep_main_v24, b_keep_main_arg2,
    b_keep_main_arg3, a_mean, a_m2, a_keep_main_arg1, a_keep_main_arg2, a_keep_main_arg3]
  rw [left_rewards, kept_mean, kept_m2, kept_count]
  rfl

end Cert.KernelIdeal.Stats

end
-- ==== Proof.KValue.lean ====
/-
  The kernel program's result. The second pass leaves (reward − mean) / divisor of what it was entered with; it was
  entered with the reward vector of the launched observations and with the new mean and the divisor of that vector
  and the launched running statistics. So the program ends with the normalised rewards of the specification.
-/
import proofs.«102708_j48052094107731_1_alg».proof.Proof.KRun
import proofs.«102708_j48052094107731_1_alg».proof.Proof.KNorm
import proofs.«102708_j48052094107731_1_alg».proof.Proof.KTail

set_option maxRecDepth 16384

noncomputable section

namespace Cert.KernelIdeal.Value

open Cert.KernelIdeal Cert.KernelIdeal.Gen Cert.KernelIdeal.Rewards Cert.KernelIdeal.Stats Cert.KernelIdeal.Stretch Cert.KernelIdeal.Norm Cert.Rnd
open Idealize.ShloMosaic Idealize.ShloMosaic.TcCoe Idealize.SL.Sem Idealize.ShloMosaic.ValueIdx

variable (m : (ℓ : Loc nD τ sig) → Buf (Elt Ideal) ℓ) (ρ : Dev nD → PrngReg)

/-- The normalised rewards of the launched arrays. -/
def G (c : Dev nD) : S524288.Idx → EReal :=
  normalized Stretch.sides (R m c) (m ((c : Thread nD τ).loc main_arg1)) (m ((c : Thread nD τ).loc main_arg2)) (m ((c : Thread nD τ).loc main_arg3))

/-- The last boundary's contents at the result. -/
theorem result (c : Dev nD) : W6 m ρ c (Proc.devRef .tc main_v53) = G m c := by
  refine (W6_arr m ρ c 2).trans ((Norm.final (V5 m ρ) c).trans ?_)
  have hR : rewardsAt (V5 m ρ) c = R m c := (entry_rewards m ρ c).trans (left_rewards m ρ c)
  funext i
  show Ideal.div (rewardsAt (V5 m ρ) c i - paramsAt (V5 m ρ) c (ix2 (0 : Fin 1) (0 : Fin 2))) (paramsAt (V5 m ρ) c (ix2 (0 : Fin 1) (1 : Fin 2))) = _
  rw [hR, show paramsAt (V5 m ρ) c (ix2 (0 : Fin 1) (0 : Fin 2)) = _ from entry_mean m ρ c,
    show paramsAt (V5 m ρ) c (ix2 (0 : Fin 1) (1 : Fin 2)) = _ from entry_denom m ρ c]
  rfl

/-- The run, read: the result array at the normalised rewards, every argument array as launched. -/
theorem run : θ_run defs (onTc (τ := τ) (main (F := Ideal))) ⟨m, fun _ => 0, ρ⟩ (fun r => ∀ c : Dev nD,
      r.2.mem ((c.tc : Thread nD τ).loc main_v53) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result m ρ c), (h c).2⟩) (Result.run_result m ρ)

end Cert.KernelIdeal.Value

end
-- ==== Proof.LibHostHidden.lean ====
/-
  A rectified dense layer as a host program spells it, read entry by entry on the extended reals: for a batch
  x : [n, K], weights w : [K, N] and a bias row b : [1, N], a dot_general contracting x's second axis with w's first,
  plus the bias row broadcast down the n rows, under a maximum with the zero constant spread from a scalar over the
  whole [n, N] matrix, is the hidden layer max(x · w + b, 0) of any extents.
-/
import proofs.«102708_j48052094107731_1_alg».proof.Proof.LibPerceptron

noncomputable section

namespace Cert.Perceptron

open Idealize.ShloMosaic Idealize.ShloMosaic.ValueIdx Idealize.ShloMosaic.GcnDense

/-- The host's rectified layer is the hidden layer, entry by entry. -/
theorem host_hidden {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (h0 : (⟨0, ![]⟩ : Shape).BroadcastsInDim ⟨2, ![n, N]⟩ ![]) :
    maximumf (addf (Host.dotGeneral D prec x w) (broadcastInDim (⟨2, ![n, N]⟩ : Shape) ![0, 1] h2 b))
        (broadcastInDim (⟨2, ![n, N]⟩ : Shape) ![] h0 (constant (F := Ideal) (⟨0, ![]⟩ : Shape) .f32 0x00000000#32))
      = hidden x w b := by
  funext i
  obtain ⟨r, j, rfl⟩ : ∃ (r : Fin n) (j : Fin N), i = ix2 r j := ⟨i 0, i 1, eq_ix2 i⟩
  rw [maximumf_apply, host_layer_apply D hr hs hlc hrc hl0 hr1 prec x w b h2 r j, hidden_ix2]
  exact congrArg (max _) (broadcastInDim_apply _ h0 _ (ix2 r j) (fun a => a.elim0) (fun a => a.elim0))

end Cert.Perceptron

end
-- ==== Proof.RefRewards.lean ====
/-
  The reference's rewards: its two networks are, layer by layer, the dense layers of the specification on the
  whole observation matrix — a dot_general with the weight matrix transposed, the bias broadcast to a row and down
  the rows, a maximum with zero —, and its mean of squared differences along each row is the row's reward.
-/
import proofs.«102708_j48052094107731_1_alg».proof.Proof.Gen.ReferenceIdeal.Read
import proofs.«102708_j48052094107731_1_alg».proof.Proof.LibHostHidden
import proofs.«102708_j48052094107731_1_alg».proof.Proof.Layouts

noncomputable section

namespace Cert.ReferenceIdeal.Rewards

open Cert.ReferenceIdeal Cert.ReferenceIdeal.Gen Cert.ReferenceIdeal.Read Cert.Rnd Cert.Perceptron
open Idealize.ShloMosaic Idealize.ShloMosaic.ValueIdx Idealize.ShloMosaic.GcnDense

variable (x0 : (⟨S524288x64, .f32⟩ : BufTy).Contents (Elt Ideal))
variable (x4 : (⟨S128x64, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
variable (x10 : (⟨S128x64, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

/-- The target network's first rectified layer. -/
theorem target1 : val_main_v5 (F := Ideal) x0 x4 x5 = hidden (x0 : S524288x64.Idx → EReal) (flip x4) (asRow x5) := by
  unfold val_main_v5 val_main_v4 val_main_v1 val_main_v3 val_main_call0_v0 val_main_call0_cst
  rw [show val_main_v0 (F := Ideal) x4 = flip x4 from flip_of_transpose _ _,
    show val_main_v2 (F := Ideal) x5 = asRow x5 from asRow_of_bcast _ _ (by decide)]
  exact host_hidden dot_S524288x64_S64x128_S524288x128_1_0_0_1_n_n rfl rfl rfl rfl lhs_main_v1_0 rhs_main_v1_1 none x0 _ _
    bcast_S1x128_S524288x128_0_1 bcast_S_S524288x128

/-- Its second. -/
theorem target2 : val_main_v11 (F := Ideal) x0 x4 x5 x6 x7
    = hidden (hidden (x0 : S524288x64.Idx → EReal) (flip x4) (asRow x5)) (flip x6) (asRow x7) := by
  unfold val_main_v11 val_main_v10 val_main_v7 val_main_v9 val_main_call1_v0 val_main_call1_cst
  rw [target1, show val_main_v6 (F := Ideal) x6 = flip x6 from flip_of_transpose _ _,
    show val_main_v8 (F := Ideal) x7 = asRow x7 from asRow_of_bcast _ _ (by decide)]
  exact host_hidden dot_S524288x128_S128x128_S524288x128_1_0_0_1_n_n rfl rfl rfl rfl lhs_main_v7_0 rhs_main_v7_1 none _ _ _
    bcast_S1x128_S524288x128_0_1 bcast_S_S524288x128

/-- Its output at an entry. -/
theorem target3 (r : Fin 524288) (j : Fin 128) : val_main_v16 (F := Ideal) x0 x4 x5 x6 x7 x8 x9 (ix2 r j)
    = Net.out (netOf x4 x5 x6 x7 x8 x9) (x0 : S524288x64.Idx → EReal) r j := by
  unfold val_main_v16 val_main_v13 val_main_v15
  rw [target2, show val_main_v12 (F := Ideal) x8 = flip x8 from flip_of_transpose _ _,
    show val_main_v14 (F := Ideal) x9 = asRow x9 from asRow_of_bcast _ _ (by decide)]
  exact host_layer_apply dot_S524288x128_S128x128_S524288x128_1_0_0_1_n_n rfl rfl rfl rfl lhs_main_v13_0 rhs_main_v13_1 none _ _ _
    bcast_S1x128_S524288x128_0_1 r j

/-- The predictor network's first rectified layer. -/
theorem pred1 : val_main_v22 (F := Ideal) x0 x10 x11 = hidden (x0 : S524288x64.Idx → EReal) (flip x10) (asRow x11) := by
  unfold val_main_v22 val_main_v21 val_main_v18 val_main_v20 val_main_call2_v0 val_main_call2_cst
  rw [show val_main_v17 (F := Ideal) x10 = flip x10 from flip_of_transpose _ _,
    show val_main_v19 (F := Ideal) x11 = asRow x11 from asRow_of_bcast _ _ (by decide)]
  exact host_hidden dot_S524288x64_S64x128_S524288x128_1_0_0_1_n_n rfl rfl rfl rfl lhs_main_v18_0 rhs_main_v18_1 none x0 _ _
    bcast_S1x128_S524288x128_0_1 bcast_S_S524288x128

/-- Its second. -/
theorem pred2 : val_main_v28 (F := Ideal) x0 x10 x11 x12 x13
    = hidden (hidden (x0 : S524288x64.Idx → EReal) (flip x10) (asRow x11)) (flip x12) (asRow x13) := by
  unfold val_main_v28 val_main_v27 val_main_v24 val_main_v26 val_main_call3_v0 val_main_call3_cst
  rw [pred1, show val_main_v23 (F := Ideal) x12 = flip x12 from flip_of_transpose _ _,
    show val_main_v25 (F := Ideal) x13 = asRow x13 from asRow_of_bcast _ _ (by decide)]
  exact host_hidden dot_S524288x128_S128x128_S524288x128_1_0_0_1_n_n rfl rfl rfl rfl lhs_main_v24_0 rhs_main_v24_1 none _ _ _
    bcast_S1x128_S524288x128_0_1 bcast_S_S524288x128

/-- Its output at an entry. -/
theorem pred3 (r : Fin 524288) (j : Fin 128) : val_main_v33 (F := Ideal) x0 x10 x11 x12 x13 x14 x15 (ix2 r j)
    = Net.out (netOf x10 x11 x12 x13 x14 x15) (x0 : S524288x64.Idx → EReal) r j := by
  unfold val_main_v33 val_main_v30 val_main_v32
  rw [pred2, show val_main_v29 (F := Ideal) x14 = flip x14 from flip_of_transpose _ _,
    show val_main_v31 (F := Ideal) x15 = asRow x15 from asRow_of_bcast _ _ (by decide)]
  exact host_layer_apply dot_S524288x128_S128x128_S524288x128_1_0_0_1_n_n rfl rfl rfl rfl lhs_main_v30_0 rhs_main_v30_1 none _ _ _
    bcast_S1x128_S524288x128_0_1 r j

/-- The reference's reward vector is the specification's. -/
theorem rewards_eq : val_main_v38 (F := Ideal) x0 x4 x5 x6 x7 x8 x9 x10 x11 x12 x13 x14 x15
    = rewards (netOf x4 x5 x6 x7 x8 x9) (netOf x10 x11 x12 x13 x14 x15) (x0 : S524288x64.Idx → EReal) := by
  funext i
  obtain ⟨r, rfl⟩ : ∃ r : Fin 524288, i = ix1 r := ⟨i 0, eq_ix1 i⟩
  rw [val_main_v38_apply, val_main_v36_apply, val_main_v37_apply, val_main_cst_0_apply, val_main_cst_apply]
  show Ideal.div (Ideal.ofBits .f32 0x00000000#32 + ∑ k : Fin 128, _) (Ideal.ofBits .f32 0x43000000#32) = reward _ _ _ r
  rw [Ideal.ofBits_zero_f32, zero_add]
  unfold reward
  refine congrArg₂ Ideal.div (Finset.sum_congr rfl fun j _ => ?_) rfl
  rw [show idx_main_v36 (ix1 r) j = ix2 r j from funext fun a => Fin.ext (by match a with | ⟨0, _⟩ => rfl | ⟨1, _⟩ => rfl)]
  rw [val_main_v35_apply, val_main_v34_apply, target3, pred3]
  rfl

end Cert.ReferenceIdeal.Rewards

end
-- ==== Proof.RefTail.lean ====
/-
  The reference's statistics and normalisation are the specification's, applied to its reward vector: the same
  operations in the same order.
-/
import proofs.«102708_j48052094107731_1_alg».proof.Proof.Gen.ReferenceIdeal.Read
import proofs.«102708_j48052094107731_1_alg».proof.Proof.Spec

noncomputable section

namespace Cert.ReferenceIdeal.Tail

open Cert.ReferenceIdeal Cert.ReferenceIdeal.Gen Cert.ReferenceIdeal.Read Cert.Rnd
open Idealize.ShloMosaic Idealize.ShloMosaic.ValueIdx

/-- The shape facts of the sum over the reward vector and of the scalar broadcasts. -/
theorem sides : Sides := ⟨reducesTo_S524288_S_d0, h_S_, bcast_S_S1, bcast_S_S524288⟩

variable (x0 : (⟨S524288x64, .f32⟩ : BufTy).Contents (Elt Ideal)) (x1 x2 x3 : (⟨S1, .f32⟩ : BufTy).Contents (Elt Ideal))
variable (x4 : (⟨S128x64, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
variable (x10 : (⟨S128x64, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

/-- The new mean. -/
theorem newMean_eq : val_main_v52 (F := Ideal) x0 x1 x3 x4 x5 x6 x7 x8 x9 x10 x11 x12 x13 x14 x15
    = newMean sides (val_main_v38 (F := Ideal) x0 x4 x5 x6 x7 x8 x9 x10 x11 x12 x13 x14 x15) x1 x3 := rfl

/-- The divisor. -/
theorem denom_eq : val_main_v72 (F := Ideal) x0 x1 x2 x3 x4 x5 x6 x7 x8 x9 x10 x11 x12 x13 x14 x15
    = denom sides (val_main_v38 (F := Ideal) x0 x4 x5 x6 x7 x8 x9 x10 x11 x12 x13 x14 x15) x1 x2 x3 := rfl

/-- The result. -/
theorem result_eq : val_main_v74 (F := Ideal) x0 x1 x2 x3 x4 x5 x6 x7 x8 x9 x10 x11 x12 x13 x14 x15
    = normalized sides (val_main_v38 (F := Ideal) x0 x4 x5 x6 x7 x8 x9 x10 x11 x12 x13 x14 x15) x1 x2 x3 := by
  funext i
  rw [val_main_v74_apply, val_main_v70_apply, val_main_v69_apply, val_main_v73_apply, newMean_eq, denom_eq]
  rw [show idx_main_v69 i = ix1 (0 : Fin 1) from funext fun a => Fin.ext (by match a with | ⟨0, _⟩ => rfl),
    show idx_main_v73 i = ix1 (0 : Fin 1) from funext fun a => Fin.ext (by match a with | ⟨0, _⟩ => rfl)]
  rfl

end Cert.ReferenceIdeal.Tail

end
-- ==== Proof.lean ====
/-
  The certificate of the reward normaliser: a kernel program of two tiled passes — the rewards of 524288
  observations under a target and a predictor network, then their normalisation by the merged running mean and
  standard deviation — against a reference that computes the same on whole arrays.

  On the extended reals both programs compute one function of the arguments. A reward is the mean over the 128
  outputs of the squared difference of the two networks on a row; the kernel computes it tile by tile with the
  weights transposed and narrowed beforehand (a narrowing is the identity on extended reals), the reference on the
  whole matrix, and a row's reward depends on that row only. The statistics — batch mean, sum of squared deviations,
  the merge with the running count, mean and second moment, the square root and the small constant — are the same
  operations in the same order in both programs, applied to that reward vector; the kernel's second pass and the
  reference's last lines both subtract the new mean and divide by the divisor, entry by entry. No law of arithmetic
  beyond the definitions is used, so the finiteness of the inputs is not needed.

  The frames of the two kernel programs are the generated ones; the reference's frame is its generated run with the
  result dropped; the idealisation rewrote nothing.
-/
import proofs.«102708_j48052094107731_1_alg».proof.Defs
import proofs.«102708_j48052094107731_1_alg».proof.Proof.Gen.Kernel
import proofs.«102708_j48052094107731_1_alg».proof.Proof.Gen.Kernel.Skeleton
import proofs.«102708_j48052094107731_1_alg».proof.Proof.Gen.Kernel.Launch
import proofs.«102708_j48052094107731_1_alg».proof.Proof.Gen.Kernel.Points
import proofs.«102708_j48052094107731_1_alg».proof.Proof.Gen.Kernel.Frame
import proofs.«102708_j48052094107731_1_alg».proof.Proof.Gen.KernelIdeal
import proofs.«102708_j48052094107731_1_alg».proof.Proof.Gen.KernelIdeal.Skeleton
import proofs.«102708_j48052094107731_1_alg».proof.Proof.Gen.KernelIdeal.Launch
import proofs.«102708_j48052094107731_1_alg».proof.Proof.Gen.KernelIdeal.Points
import proofs.«102708_j48052094107731_1_alg».proof.Proof.Gen.KernelIdeal.Frame
import proofs.«102708_j48052094107731_1_alg».proof.Proof.Gen.ReferenceIdeal
import proofs.«102708_j48052094107731_1_alg».proof.Proof.Gen.Pre_finite_inputs
import proofs.«102708_j48052094107731_1_alg».proof.Proof.Gen.ReferenceIdeal.Run
import proofs.«102708_j48052094107731_1_alg».proof.Proof.Gen.ReferenceIdeal.Read
import proofs.«102708_j48052094107731_1_alg».proof.Proof.KValue
import proofs.«102708_j48052094107731_1_alg».proof.Proof.RefRewards
import proofs.«102708_j48052094107731_1_alg».proof.Proof.RefTail
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealisation. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree the two idealised programs end with the same normalised rewards. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.G m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v74_eq, Cert.ReferenceIdeal.Tail.result_eq, Cert.ReferenceIdeal.Rewards.rewards_eq,
    a0, a1, a2, a3, a4, a5, a6, a7, a8, a9, a10, a11, a12, a13, a14, a15]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
